-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x33 : Shape := ⟨2, ![16384, 33]⟩
abbrev S16x128 : Shape := ⟨2, ![16, 128]⟩
abbrev S128 : Shape := ⟨1, ![128]⟩
abbrev S128x16 : Shape := ⟨2, ![128, 16]⟩
abbrev S16 : Shape := ⟨1, ![16]⟩
abbrev S_ : Shape := ⟨0, ![]⟩

class Facts : Prop where
  bcast_S_S16384x33 : S_.BroadcastsInDim S16384x33 (![] : Fin 0 → Fin S16384x33.rank)
  reducesTo_S16384x33_S_d0_1 : S16384x33.ReducesTo [0, 1] S_
  h_S_ : 0 < S_.numel
  bcast_S_S16x128 : S_.BroadcastsInDim S16x128 (![] : Fin 0 → Fin S16x128.rank)
  reducesTo_S16x128_S_d0_1 : S16x128.ReducesTo [0, 1] S_
  bcast_S_S128 : S_.BroadcastsInDim S128 (![] : Fin 0 → Fin S128.rank)
  reducesTo_S128_S_d0 : S128.ReducesTo [0] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg4 : FVec F S16 .f32) (main_arg5 : FVec F S128x16 .f32) (main_arg6 : FVec F S16 .f32) (main_v13 : IVec S_ 1) (main_v16 : IVec S128x16 1) : IVec S_ 1 :=
  let main_c_5 : IVec S_ 1 := constantI S_ 1 1#1
  let main_v17 : IVec S_ 1 := (fun x v => Host.reduce IntOp.andi x v reducesTo_S128x16_S_d0_1 h_S_) main_v16 main_c_5
  let main_v18 : IVec S_ 1 := andi main_v13 main_v17
  let main_v19 : FVec F S16 .f32 := Host.absf main_arg4
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S128x16 .f32 := Host.absf main_arg5
  let main_cst_8 : FVec F S_ .f32 := constant S_ .f32 0x7F800000#32
  let main_v25 : FVec F S128x16 .f32 := broadcastInDim S128x16 ![] bcast_S_S128x16 main_cst_8
  let main_v26 : IVec S128x16 1 := cmpf .olt main_v24 main_v25
  let main_c_9 : IVec S_ 1 := constantI S_ 1 1#1
  let main_v27 : IVec S_ 1 := (fun x v => Host.reduce IntOp.andi x v reducesTo_S128x16_S_d0_1 h_S_) main_v26 main_c_9
  let main_v28 : IVec S_ 1 := andi main_v23 main_v27
  let main_v29 : FVec F S16 .f32 := Host.absf main_arg6
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  main_v33

def fn {F : FTy → Type} [FloatOps F] (main_arg0 : FVec F S16384x33 .f32) (main_arg1 : FVec F S16x128 .f32) (main_arg2 : FVec F S128 .f32) (main_arg3 : FVec F S128x16 .f32) (main_arg4 : FVec F S16 .f32) (main_arg5 : FVec F S128x16 .f32) (main_arg6 : FVec F S16 .f32) : IVec S_ 1 :=
  let main_v0 : FVec F S16384x33 .f32 := Host.absf main_arg0
  let main_cst : FVec F S_ .f32 := constant S_ .f32 0x7F800000#32
  let main_v1 : FVec F S16384x33 .f32 := broadcastInDim S16384x33 ![] bcast_S_S16384x33 main_cst
  let main_v2 : IVec S16384x33 1 := cmpf .olt main_v0 main_v1
  let main_c : IVec S_ 1 := constantI S_ 1 1#1
  let main_v3 : IVec S_ 1 := (fun x v => Host.reduce IntOp.andi x v reducesTo_S16384x33_S_d0_1 h_S_) main_v2 main_c
  let main_v4 : FVec F S16x128 .f32 := Host.absf main_arg1
  let main_cst_0 : FVec F S_ .f32 := constant S_ .f32 0x7F800000#32
  let main_v5 : FVec F S16x128 .f32 := broadcastInDim S16x128 ![] bcast_S_S16x128 main_cst_0
  let main_v6 : IVec S16x128 1 := cmpf .olt main_v4 main_v5
  let main_c_1 : IVec S_ 1 := constantI S_ 1 1#1
  let main_v7 : IVec S_ 1 := (fun x v => Host.reduce IntOp.andi x v reducesTo_S16x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x16 .f32 := Host.absf main_arg3
  let main_cst_4 : FVec F S_ .f32 := constant S_ .f32 0x7F800000#32
  let main_v15 : FVec F S128x16 .f32 := broadcastInDim S128x16 ![] bcast_S_S128x16 main_cst_4
  let main_v16 : IVec S128x16 1 := cmpf .olt main_v14 main_v15
  fn_part1 (F := F) main_arg4 main_arg5 main_arg6 main_v13 main_v16
-- ==== Kernel.lean ====
abbrev S16384x33 : Shape := ⟨2, ![16384, 33]⟩
abbrev S16x128 : Shape := ⟨2, ![16, 128]⟩
abbrev S128 : Shape := ⟨1, ![128]⟩
abbrev S128x16 : Shape := ⟨2, ![128, 16]⟩
abbrev S16 : Shape := ⟨1, ![16]⟩
abbrev S16384x1 : Shape := ⟨2, ![16384, 1]⟩
abbrev S16384x16 : Shape := ⟨2, ![16384, 16]⟩
abbrev S16384x128 : Shape := ⟨2, ![16384, 128]⟩
abbrev S1x128 : Shape := ⟨2, ![1, 128]⟩
abbrev S_ : Shape := ⟨0, ![]⟩
abbrev S1x16 : Shape := ⟨2, ![1, 16]⟩
abbrev S16384 : Shape := ⟨1, ![16384]⟩
abbrev S1x16384 : Shape := ⟨2, ![1, 16384]⟩
abbrev S1x1 : Shape := ⟨2, ![1, 1]⟩
abbrev S1024x16 : Shape := ⟨2, ![1024, 16]⟩
abbrev S2048x16 : Shape := ⟨2, ![2048, 16]⟩
abbrev S1024x1 : Shape := ⟨2, ![1024, 1]⟩
abbrev S1x2048 : Shape := ⟨2, ![1, 2048]⟩
abbrev S16x2048 : Shape := ⟨2, ![16, 2048]⟩
abbrev S1024x2048 : Shape := ⟨2, ![1024, 2048]⟩
abbrev S1x1024x2048 : Shape := ⟨3, ![1, 1024, 2048]⟩
abbrev S1 : Shape := ⟨1, ![1]⟩
abbrev S1x1x1 : Shape := ⟨3, ![1, 1, 1]⟩

abbrev nBuf : Space → Nat
  | .hbm => 70
  | .vmem => 10
  | .smem => 0
  | _ => 0

abbrev bufTy : (tb : Table) → Fin (tcTables nBuf tb) → BufTy
  | .hbm, ⟨0, _⟩ => ⟨S16384x33, .f32⟩
  | .hbm, ⟨1, _⟩ => ⟨S16x128, .f32⟩
  | .hbm, ⟨2, _⟩ => ⟨S128, .f32⟩
  | .hbm, ⟨3, _⟩ => ⟨S128x16, .f32⟩
  | .hbm, ⟨4, _⟩ => ⟨S16, .f32⟩
  | .hbm, ⟨5, _⟩ => ⟨S128x16, .f32⟩
  | .hbm, ⟨6, _⟩ => ⟨S16, .f32⟩
  | .hbm, ⟨7, _⟩ => ⟨S16384x1, .f32⟩
  | .hbm, ⟨8, _⟩ => ⟨S16384x16, .f32⟩
  | .hbm, ⟨9, _⟩ => ⟨S16384x16, .f32⟩
  | .hbm, ⟨10, _⟩ => ⟨S16384x128, .f32⟩
  | .hbm, ⟨11, _⟩ => ⟨S1x128, .f32⟩
  | .hbm, ⟨12, _⟩ => ⟨S16384x128, .f32⟩
  | .hbm, ⟨13, _⟩ => ⟨S16384x128, .f32⟩
  | .hbm, ⟨14, _⟩ => ⟨S_, .f32⟩
  | .hbm, ⟨15, _⟩ => ⟨S16384x128, .f32⟩
  | .hbm, ⟨16, _⟩ => ⟨S16384x128, .f32⟩
  | .hbm, ⟨17, _⟩ => ⟨S16384x16, .f32⟩
  | .hbm, ⟨18, _⟩ => ⟨S1x16, .f32⟩
  | .hbm, ⟨19, _⟩ => ⟨S16384x16, .f32⟩
  | .hbm, ⟨20, _⟩ => ⟨S16384x16, .f32⟩
  | .hbm, ⟨21, _⟩ => ⟨S16384x16, .f32⟩
  | .hbm, ⟨22, _⟩ => ⟨S1x16, .f32⟩
  | .hbm, ⟨23, _⟩ => ⟨S16384x16, .f32⟩
  | .hbm, ⟨24, _⟩ => ⟨S16384x16, .f32⟩
  | .hbm, ⟨25, _⟩ => ⟨S_, .f32⟩
  | .hbm, ⟨26, _⟩ => ⟨S16384x16, .f32⟩
  | .hbm, ⟨27, _⟩ => ⟨S16384x16, .f32⟩
  | .hbm, ⟨28, _⟩ => ⟨S16384x16, .f32⟩
  | .hbm, ⟨29, _⟩ => ⟨S16384x16, .f32⟩
  | .hbm, ⟨30, _⟩ => ⟨S16384x16, .i1⟩
  | .hbm, ⟨31, _⟩ => ⟨S16384x16, .f32⟩
  | .hbm, ⟨32, _⟩ => ⟨S16384x16, .f32⟩
  | .hbm, ⟨33, _⟩ => ⟨S16384x16, .f32⟩
  | .hbm, ⟨34, _⟩ => ⟨S16384x16, .f32⟩
  | .hbm, ⟨35, _⟩ => ⟨S16384x16, .f32⟩
  | .hbm, ⟨36, _⟩ => ⟨S16384x16, .f32⟩
  | .hbm, ⟨37, _⟩ => ⟨S16384x16, .f32⟩
  | .hbm, ⟨38, _⟩ => ⟨S16384x16, .f32⟩
  | .hbm, ⟨39, _⟩ => ⟨S_, .f32⟩
  | .hbm, ⟨40, _⟩ => ⟨S16384x16, .f32⟩
  | .hbm, ⟨41, _⟩ => ⟨S16384x16, .f32⟩
  | .hbm, ⟨42, _⟩ => ⟨S16384x16, .f32⟩
  | .hbm, ⟨43, _⟩ => ⟨S16384x16, .f32⟩
  | .hbm, ⟨44, _⟩ => ⟨S16384x16, .f32⟩
  | .hbm, ⟨45, _⟩ => ⟨S16384x16, .f32⟩
  | .hbm, ⟨46, _⟩ => ⟨S16384x1, .f32⟩
  | .hbm, ⟨47, _⟩ => ⟨S16384x16, .f32⟩
  | .hbm, ⟨48, _⟩ => ⟨S16384x16, .f32⟩
  | .hbm, ⟨49, _⟩ => ⟨S16384x16, .f32⟩
  | .hbm, ⟨50, _⟩ => ⟨S16384x16, .f32⟩
  | .hbm, ⟨51, _⟩ => ⟨S_, .f32⟩
  | .hbm, ⟨52, _⟩ => ⟨S16384, .f32⟩
  | .hbm, ⟨53, _⟩ => ⟨S16384x1, .f32⟩
  | .hbm, ⟨54, _⟩ => ⟨S1x16384, .f32⟩
  | .hbm, ⟨55, _⟩ => ⟨S1x1, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S16384, .f32⟩
  | .hbm, ⟨61, _⟩ => ⟨S16384, .f32⟩
  | .hbm, ⟨62, _⟩ => ⟨S16384, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .local _ .vmem, ⟨0, _⟩ => ⟨S1024x16, .f32⟩
  | .local _ .vmem, ⟨1, _⟩ => ⟨S1024x16, .f32⟩
  | .local _ .vmem, ⟨2, _⟩ => ⟨S2048x16, .f32⟩
  | .local _ .vmem, ⟨3, _⟩ => ⟨S2048x16, .f32⟩
  | .local _ .vmem, ⟨4, _⟩ => ⟨S1024x1, .f32⟩
  | .local _ .vmem, ⟨5, _⟩ => ⟨S1024x1, .f32⟩
  | .local _ .vmem, ⟨6, _⟩ => ⟨S1x2048, .f32⟩
  | .local _ .vmem, ⟨7, _⟩ => ⟨S1x2048, .f32⟩
  | .local _ .vmem, ⟨8, _⟩ => ⟨S1x1, .f32⟩
  | .local _ .vmem, ⟨9, _⟩ => ⟨S1x1, .f32⟩
  | _, _ => ⟨S16384x33, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_call0_cst : Ref sig .tc := ⟨.hbm, 14, rfl⟩
abbrev main_call0_v0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_call1_cst : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_call1_v5 : Ref sig .tc := ⟨.hbm, 31, rfl⟩
abbrev main_call1_v6 : Ref sig .tc := ⟨.hbm, 32, rfl⟩
abbrev main_call1_v7 : Ref sig .tc := ⟨.hbm, 33, rfl⟩
abbrev main_call1_v8 : Ref sig .tc := ⟨.hbm, 34, rfl⟩
abbrev main_call1_v9 : Ref sig .tc := ⟨.hbm, 35, rfl⟩
abbrev main_call1_v10 : Ref sig .tc := ⟨.hbm, 36, rfl⟩
abbrev main_call1_v11 : Ref sig .tc := ⟨.hbm, 37, rfl⟩
abbrev main_v16 : Ref sig .tc := ⟨.hbm, 38, rfl⟩
abbrev main_cst : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_cst_0 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_cst_1 : Ref sig .tc := ⟨.hbm, 57, rfl⟩
abbrev main_v33 : Ref sig .tc := ⟨.hbm, 58, rfl⟩
abbrev main_cst_2 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_cst_3 : Ref sig .tc := ⟨.hbm, 63, rfl⟩
abbrev main_v37 : Ref sig .tc := ⟨.hbm, 64, rfl⟩
abbrev main_cst_4 : Ref sig .tc := ⟨.hbm, 65, rfl⟩
abbrev main_v38 : Ref sig .tc := ⟨.hbm, 66, rfl⟩
abbrev main_v39 : Ref sig .tc := ⟨.hbm, 67, rfl⟩
abbrev main_cst_5 : Ref sig .tc := ⟨.hbm, 68, rfl⟩
abbrev main_v40 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨2, ![16, 8], ![false, false]⟩

def k0_cond2 (i : grid0.Coords) : BitVec 1 :=
  let arg0 : BitVec 32 := BitVec.ofNat 32 (i 0).val
  let c15_i32 : BitVec 32 := 15#32
  let v36 : BitVec 1 := Scalar.cmpi .eq arg0 c15_i32
  let arg1 : BitVec 32 := BitVec.ofNat 32 (i 1).val
  let c7_i32 : BitVec 32 := 7#32
  let v37 : BitVec 1 := Scalar.cmpi .eq arg1 c7_i32
  let v38 : BitVec 1 := Scalar.andi v36 v37
  let v39 : BitVec 32 := Scalar.extui v38
  let c0_i32_17 : BitVec 32 := 0#32
  let v40 : BitVec 1 := Scalar.cmpi .ne v39 c0_i32_17
  v40

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

class Facts₀ : Prop where
  slices_S16384x33_S16384x1_0_0 : S16384x33.Slices ![0, 0] S16384x1
  slices_S16384x33_S16384x16_0_1 : S16384x33.Slices ![0, 1] S16384x16
  slices_S16384x33_S16384x16_0_17 : S16384x33.Slices ![0, 17] S16384x16
  bcast_S128_S1x128_1 : S128.BroadcastsInDim S1x128 (![1] : Fin 1 → Fin S1x128.rank)
  bcast_S1x128_S16384x128_0_1 : S1x128.BroadcastsInDim S16384x128 (![0, 1] : Fin 2 → Fin S16384x128.rank)
  bcast_S_S16384x128 : S_.BroadcastsInDim S16384x128 (![] : Fin 0 → Fin S16384x128.rank)
  bcast_S16_S1x16_1 : S16.BroadcastsInDim S1x16 (![1] : Fin 1 → Fin S1x16.rank)
  bcast_S1x16_S16384x16_0_1 : S1x16.BroadcastsInDim S16384x16 (![0, 1] : Fin 2 → Fin S16384x16.rank)
  bcast_S_S16384x16 : S_.BroadcastsInDim S16384x16 (![] : Fin 0 → Fin S16384x16.rank)
  bcast_S16384x1_S16384x16_0_1 : S16384x1.BroadcastsInDim S16384x16 (![0, 1] : Fin 2 → Fin S16384x16.rank)
  reducesTo_S16384x16_S16384_d1 : S16384x16.ReducesTo [1] S16384
  h_S_ : 0 < S_.numel
  shapeCasts_S16384_S16384x1 : S16384.ShapeCasts S16384x1
  shapeCasts_S16384_S1x16384 : S16384.ShapeCasts S1x16384
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1024x16_S1024x16_0_0 : ∀ a, (![0, 0] : Fin 2 → Nat) a + S1024x16.size a ≤ S1024x16.size a
  h_S1024x16 : 0 < S1024x16.numel
  shapeCasts_S1024x16_S1024x16 : S1024x16.ShapeCasts S1024x16
  inb_S2048x16_S2048x16_0_0 : ∀ a, (![0, 0] : Fin 2 → Nat) a + S2048x16.size a ≤ S2048x16.size a
  h_S2048x16 : 0 < S2048x16.numel
  shapeCasts_S2048x16_S2048x16 : S2048x16.ShapeCasts S2048x16
  transposes_S2048x16_p1_0_S16x2048 : S2048x16.Transposes [1, 0] S16x2048
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1024x1_S1024x2048 : S1024x1.Broadcasts S1024x2048
  broadcasts_S1x2048_S1024x2048 : S1x2048.Broadcasts S1024x2048
  shapeCasts_S1024x2048_S1x1024x2048 : S1024x2048.ShapeCasts S1x1024x2048
  reduces_S1x1024x2048_S1 : S1x1024x2048.Reduces [1, 2] S1
  shapeCasts_S1_S1x1x1 : S1.ShapeCasts S1x1x1
  inpos_S1x1x1_p0_0_0 : ∀ a, (![0, 0, 0] : Fin 3 → Nat) a < S1x1x1.size a
  shapeCasts_S1x1_S_ : S1x1.ShapeCasts S_
  bcast_S_S16384 : S_.BroadcastsInDim S16384 (![] : Fin 0 → Fin S16384.rank)
  reducesTo_S16384_S_d0 : S16384.ReducesTo [0] S_
  dot_S16384x16_S16x128_S16384x128_1_0_0_1_n_n_wf : DotDims.WF S16384x16 S16x128 S16384x128 [1] [0] [0] [1] [] []
  dot_S16384x128_S128x16_S16384x16_1_0_0_1_n_n_wf : DotDims.WF S16384x128 S128x16 S16384x16 [1] [0] [0] [1] [] []
  dot_S1024x16_S16x2048_S1024x2048_1_0_0_1_n_n_wf : DotDims.WF S1024x16 S16x2048 S1024x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x16.size a ≤ S16384x16.size a
  hwx0_0 : ∀ i : grid0.Coords, EltTy.bits .f32 = 32 ∨ (Rect.block (s := S16384x16) S1024x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x16.size a ≤ S16384x16.size a
  hwx0_1 : ∀ i : grid0.Coords, EltTy.bits .f32 = 32 ∨ (Rect.block (s := S16384x16) S2048x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S16384x1.size a
  hwx0_2 : ∀ i : grid0.Coords, EltTy.bits .f32 = 32 ∨ (Rect.block (s := S16384x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x16384.size a
  hwx0_3 : ∀ i : grid0.Coords, EltTy.bits .f32 = 32 ∨ (Rect.block (s := S1x16384) S1x2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)

variable [Facts₀]

def dot_S16384x16_S16x128_S16384x128_1_0_0_1_n_n : DotDims S16384x16 S16x128 S16384x128 where
  lhsContracting := [1]
  rhsContracting := [0]
  lhsNonContracting := [0]
  rhsNonContracting := [1]
  lhsBatch := []
  rhsBatch := []
  wf := dot_S16384x16_S16x128_S16384x128_1_0_0_1_n_n_wf
def dot_S16384x128_S128x16_S16384x16_1_0_0_1_n_n : DotDims S16384x128 S128x16 S16384x16 where
  lhsContracting := [1]
  rhsContracting := [0]
  lhsNonContracting := [0]
  rhsNonContracting := [1]
  lhsBatch := []
  rhsBatch := []
  wf := dot_S16384x128_S128x16_S16384x16_1_0_0_1_n_n_wf
def dot_S1024x16_S16x2048_S1024x2048_1_0_0_1_n_n : DotDims S1024x16 S16x2048 S1024x2048 where
  lhsContracting := [1]
  rhsContracting := [0]
  lhsNonContracting := [0]
  rhsNonContracting := [1]
  lhsBatch := []
  rhsBatch := []
  wf := dot_S1024x16_S16x2048_S1024x2048_1_0_0_1_n_n_wf

abbrev win0_0 : Pipeline.Window sig grid0 :=
  Pipeline.Window.ofSpec (Memref.whole main_v26) S1024x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v26) S2048x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v29) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v30) S1x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v31) S1x1.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S16384x33 : Shape := ⟨2, ![16384, 33]⟩
abbrev S16x128 : Shape := ⟨2, ![16, 128]⟩
abbrev S128 : Shape := ⟨1, ![128]⟩
abbrev S128x16 : Shape := ⟨2, ![128, 16]⟩
abbrev S16 : Shape := ⟨1, ![16]⟩
abbrev S16384x1 : Shape := ⟨2, ![16384, 1]⟩
abbrev S16384x16 : Shape := ⟨2, ![16384, 16]⟩
abbrev S16384x128 : Shape := ⟨2, ![16384, 128]⟩
abbrev S1x128 : Shape := ⟨2, ![1, 128]⟩
abbrev S_ : Shape := ⟨0, ![]⟩
abbrev S1x16 : Shape := ⟨2, ![1, 16]⟩
abbrev S16384 : Shape := ⟨1, ![16384]⟩
abbrev S1x16384 : Shape := ⟨2, ![1, 16384]⟩
abbrev S16384x16384 : Shape := ⟨2, ![16384, 16384]⟩
abbrev S16x16384 : Shape := ⟨2, ![16, 16384]⟩

abbrev nBuf : Space → Nat
  | .hbm => 86
  | .vmem => 0
  | .smem => 0
  | _ => 0

abbrev bufTy : (tb : Table) → Fin (tcTables nBuf tb) → BufTy
  | .hbm, ⟨0, _⟩ => ⟨S16384x33, .f32⟩
  | .hbm, ⟨1, _⟩ => ⟨S16x128, .f32⟩
  | .hbm, ⟨2, _⟩ => ⟨S128, .f32⟩
  | .hbm, ⟨3, _⟩ => ⟨S128x16, .f32⟩
  | .hbm, ⟨4, _⟩ => ⟨S16, .f32⟩
  | .hbm, ⟨5, _⟩ => ⟨S128x16, .f32⟩
  | .hbm, ⟨6, _⟩ => ⟨S16, .f32⟩
  | .hbm, ⟨7, _⟩ => ⟨S16384x1, .f32⟩
  | .hbm, ⟨8, _⟩ => ⟨S16384x16, .f32⟩
  | .hbm, ⟨9, _⟩ => ⟨S16384x16, .f32⟩
  | .hbm, ⟨10, _⟩ => ⟨S16384x128, .f32⟩
  | .hbm, ⟨11, _⟩ => ⟨S1x128, .f32⟩
  | .hbm, ⟨12, _⟩ => ⟨S16384x128, .f32⟩
  | .hbm, ⟨13, _⟩ => ⟨S16384x128, .f32⟩
  | .hbm, ⟨14, _⟩ => ⟨S_, .f32⟩
  | .hbm, ⟨15, _⟩ => ⟨S16384x128, .f32⟩
  | .hbm, ⟨16, _⟩ => ⟨S16384x128, .f32⟩
  | .hbm, ⟨17, _⟩ => ⟨S16384x16, .f32⟩
  | .hbm, ⟨18, _⟩ => ⟨S1x16, .f32⟩
  | .hbm, ⟨19, _⟩ => ⟨S16384x16, .f32⟩
  | .hbm, ⟨20, _⟩ => ⟨S16384x16, .f32⟩
  | .hbm, ⟨21, _⟩ => ⟨S16384x16, .f32⟩
  | .hbm, ⟨22, _⟩ => ⟨S1x16, .f32⟩
  | .hbm, ⟨23, _⟩ => ⟨S16384x16, .f32⟩
  | .hbm, ⟨24, _⟩ => ⟨S16384x16, .f32⟩
  | .hbm, ⟨25, _⟩ => ⟨S_, .f32⟩
  | .hbm, ⟨26, _⟩ => ⟨S16384x16, .f32⟩
  | .hbm, ⟨27, _⟩ => ⟨S16384x16, .f32⟩
  | .hbm, ⟨28, _⟩ => ⟨S16384x16, .f32⟩
  | .hbm, ⟨29, _⟩ => ⟨S16384x16, .f32⟩
  | .hbm, ⟨30, _⟩ => ⟨S16384x16, .i1⟩
  | .hbm, ⟨31, _⟩ => ⟨S16384x16, .f32⟩
  | .hbm, ⟨32, _⟩ => ⟨S16384x16, .f32⟩
  | .hbm, ⟨33, _⟩ => ⟨S16384x16, .f32⟩
  | .hbm, ⟨34, _⟩ => ⟨S16384x16, .f32⟩
  | .hbm, ⟨35, _⟩ => ⟨S16384x16, .f32⟩
  | .hbm, ⟨36, _⟩ => ⟨S16384x16, .f32⟩
  | .hbm, ⟨37, _⟩ => ⟨S16384x16, .f32⟩
  | .hbm, ⟨38, _⟩ => ⟨S16384x16, .f32⟩
  | .hbm, ⟨39, _⟩ => ⟨S_, .f32⟩
  | .hbm, ⟨40, _⟩ => ⟨S16384x16, .f32⟩
  | .hbm, ⟨41, _⟩ => ⟨S16384x16, .f32⟩
  | .hbm, ⟨42, _⟩ => ⟨S16384x16, .f32⟩
  | .hbm, ⟨43, _⟩ => ⟨S16384x16, .f32⟩
  | .hbm, ⟨44, _⟩ => ⟨S16384x16, .f32⟩
  | .hbm, ⟨45, _⟩ => ⟨S16384x16, .f32⟩
  | .hbm, ⟨46, _⟩ => ⟨S16384x1, .f32⟩
  | .hbm, ⟨47, _⟩ => ⟨S16384x16, .f32⟩
  | .hbm, ⟨48, _⟩ => ⟨S16384x16, .f32⟩
  | .hbm, ⟨49, _⟩ => ⟨S16384x16, .f32⟩
  | .hbm, ⟨50, _⟩ => ⟨S16384x16, .f32⟩
  | .hbm, ⟨51, _⟩ => ⟨S_, .f32⟩
  | .hbm, ⟨52, _⟩ => ⟨S16384, .f32⟩
  | .hbm, ⟨53, _⟩ => ⟨S16384x1, .f32⟩
  | .hbm, ⟨54, _⟩ => ⟨S1x16384, .f32⟩
  | .hbm, ⟨55, _⟩ => ⟨S16384x16384, .f32⟩
  | .hbm, ⟨56, _⟩ => ⟨S16384x16384, .f32⟩
  | .hbm, ⟨57, _⟩ => ⟨S16384x16384, .f32⟩
  | .hbm, ⟨58, _⟩ => ⟨S16x16384, .f32⟩
  | .hbm, ⟨59, _⟩ => ⟨S16384x16384, .f32⟩
  | .hbm, ⟨60, _⟩ => ⟨S_, .f32⟩
  | .hbm, ⟨61, _⟩ => ⟨S16384x16384, .f32⟩
  | .hbm, ⟨62, _⟩ => ⟨S16384x16384, .f32⟩
  | .hbm, ⟨63, _⟩ => ⟨S16384x16384, .f32⟩
  | .hbm, ⟨64, _⟩ => ⟨S_, .f32⟩
  | .hbm, ⟨65, _⟩ => ⟨S16384x16384, .f32⟩
  | .hbm, ⟨66, _⟩ => ⟨S16384x16384, .f32⟩
  | .hbm, ⟨67, _⟩ => ⟨S_, .f32⟩
  | .hbm, ⟨68, _⟩ => ⟨S16384x16384, .f32⟩
  | .hbm, ⟨69, _⟩ => ⟨S16384x16384, .f32⟩
  | .hbm, ⟨70, _⟩ => ⟨S16384x16384, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S16384, .f32⟩
  | .hbm, ⟨77, _⟩ => ⟨S16384, .f32⟩
  | .hbm, ⟨78, _⟩ => ⟨S16384, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | _, _ => ⟨S16384x33, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_call0_cst : Ref sig .tc := ⟨.hbm, 14, rfl⟩
abbrev main_call0_v0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_call1_cst : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_call1_v5 : Ref sig .tc := ⟨.hbm, 31, rfl⟩
abbrev main_call1_v6 : Ref sig .tc := ⟨.hbm, 32, rfl⟩
abbrev main_call1_v7 : Ref sig .tc := ⟨.hbm, 33, rfl⟩
abbrev main_call1_v8 : Ref sig .tc := ⟨.hbm, 34, rfl⟩
abbrev main_call1_v9 : Ref sig .tc := ⟨.hbm, 35, rfl⟩
abbrev main_call1_v10 : Ref sig .tc := ⟨.hbm, 36, rfl⟩
abbrev main_call1_v11 : Ref sig .tc := ⟨.hbm, 37, rfl⟩
abbrev main_v16 : Ref sig .tc := ⟨.hbm, 38, rfl⟩
abbrev main_cst : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_cst_0 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_cst_1 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_cst_2 : Ref sig .tc := ⟨.hbm, 64, rfl⟩
abbrev main_v39 : Ref sig .tc := ⟨.hbm, 65, rfl⟩
abbrev main_v40 : Ref sig .tc := ⟨.hbm, 66, rfl⟩
abbrev main_cst_3 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_cst_4 : Ref sig .tc := ⟨.hbm, 71, rfl⟩
abbrev main_v44 : Ref sig .tc := ⟨.hbm, 72, rfl⟩
abbrev main_cst_5 : Ref sig .tc := ⟨.hbm, 73, rfl⟩
abbrev main_v45 : Ref sig .tc := ⟨.hbm, 74, rfl⟩
abbrev main_cst_6 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_cst_7 : Ref sig .tc := ⟨.hbm, 79, rfl⟩
abbrev main_v49 : Ref sig .tc := ⟨.hbm, 80, rfl⟩
abbrev main_cst_8 : Ref sig .tc := ⟨.hbm, 81, rfl⟩
abbrev main_v50 : Ref sig .tc := ⟨.hbm, 82, rfl⟩
abbrev main_v51 : Ref sig .tc := ⟨.hbm, 83, rfl⟩
abbrev main_cst_9 : Ref sig .tc := ⟨.hbm, 84, rfl⟩
abbrev main_v52 : Ref sig .tc := ⟨.hbm, 85, rfl⟩

abbrev nD : Nat := 1
abbrev τ : Topo := Topo.v7x

variable {F : FTy → Type} [FloatOps F]

class Facts₀ : Prop where
  slices_S16384x33_S16384x1_0_0 : S16384x33.Slices ![0, 0] S16384x1
  slices_S16384x33_S16384x16_0_1 : S16384x33.Slices ![0, 1] S16384x16
  slices_S16384x33_S16384x16_0_17 : S16384x33.Slices ![0, 17] S16384x16
  bcast_S128_S1x128_1 : S128.BroadcastsInDim S1x128 (![1] : Fin 1 → Fin S1x128.rank)
  bcast_S1x128_S16384x128_0_1 : S1x128.BroadcastsInDim S16384x128 (![0, 1] : Fin 2 → Fin S16384x128.rank)
  bcast_S_S16384x128 : S_.BroadcastsInDim S16384x128 (![] : Fin 0 → Fin S16384x128.rank)
  bcast_S16_S1x16_1 : S16.BroadcastsInDim S1x16 (![1] : Fin 1 → Fin S1x16.rank)
  bcast_S1x16_S16384x16_0_1 : S1x16.BroadcastsInDim S16384x16 (![0, 1] : Fin 2 → Fin S16384x16.rank)
  bcast_S_S16384x16 : S_.BroadcastsInDim S16384x16 (![] : Fin 0 → Fin S16384x16.rank)
  bcast_S16384x1_S16384x16_0_1 : S16384x1.BroadcastsInDim S16384x16 (![0, 1] : Fin 2 → Fin S16384x16.rank)
  reducesTo_S16384x16_S16384_d1 : S16384x16.ReducesTo [1] S16384
  h_S_ : 0 < S_.numel
  bcast_S16384_S16384x1_0 : S16384.BroadcastsInDim S16384x1 (![0] : Fin 1 → Fin S16384x1.rank)
  bcast_S16384_S1x16384_1 : S16384.BroadcastsInDim S1x16384 (![1] : Fin 1 → Fin S1x16384.rank)
  bcast_S16384x1_S16384x16384_0_1 : S16384x1.BroadcastsInDim S16384x16384 (![0, 1] : Fin 2 → Fin S16384x16384.rank)
  bcast_S1x16384_S16384x16384_0_1 : S1x16384.BroadcastsInDim S16384x16384 (![0, 1] : Fin 2 → Fin S16384x16384.rank)
  transposes_S16384x16_S16x16384_1_0 : S16384x16.Transposes [1, 0] S16x16384
  bcast_S_S16384x16384 : S_.BroadcastsInDim S16384x16384 (![] : Fin 0 → Fin S16384x16384.rank)
  reducesTo_S16384x16384_S_d0_1 : S16384x16384.ReducesTo [0, 1] S_
  bcast_S_S16384 : S_.BroadcastsInDim S16384 (![] : Fin 0 → Fin S16384.rank)
  reducesTo_S16384_S_d0 : S16384.ReducesTo [0] S_
  dot_S16384x16_S16x128_S16384x128_1_0_0_1_n_n_wf : DotDims.WF S16384x16 S16x128 S16384x128 [1] [0] [0] [1] [] []
  dot_S16384x128_S128x16_S16384x16_1_0_0_1_n_n_wf : DotDims.WF S16384x128 S128x16 S16384x16 [1] [0] [0] [1] [] []
  dot_S16384x16_S16x16384_S16384x16384_1_0_0_1_n_n_wf : DotDims.WF S16384x16 S16x16384 S16384x16384 [1] [0] [0] [1] [] []

variable [Facts₀]

def dot_S16384x16_S16x128_S16384x128_1_0_0_1_n_n : DotDims S16384x16 S16x128 S16384x128 where
  lhsContracting := [1]
  rhsContracting := [0]
  lhsNonContracting := [0]
  rhsNonContracting := [1]
  lhsBatch := []
  rhsBatch := []
  wf := dot_S16384x16_S16x128_S16384x128_1_0_0_1_n_n_wf
def dot_S16384x128_S128x16_S16384x16_1_0_0_1_n_n : DotDims S16384x128 S128x16 S16384x16 where
  lhsContracting := [1]
  rhsContracting := [0]
  lhsNonContracting := [0]
  rhsNonContracting := [1]
  lhsBatch := []
  rhsBatch := []
  wf := dot_S16384x128_S128x16_S16384x16_1_0_0_1_n_n_wf
def dot_S16384x16_S16x16384_S16384x16384_1_0_0_1_n_n : DotDims S16384x16 S16x16384 S16384x16384 where
  lhsContracting := [1]
  rhsContracting := [0]
  lhsNonContracting := [0]
  rhsNonContracting := [1]
  lhsBatch := []
  rhsBatch := []
  wf := dot_S16384x16_S16x16384_S16384x16384_1_0_0_1_n_n_wf

class Facts : Prop extends Facts₀ where

variable [Facts]
-- ==== Proof.K.Setup.lean ====
/-
  The program around its one kernel region: the host operations before the region compute the sample matrix
  (one row per sample) and the vector of squared row norms; the region sums exp(-d/2) over all pairs of samples
  tile by tile; the host operations after it scale that sum and add the two remaining terms of the statistic.

  This module names the contents of every buffer when the region is entered (the earlier operations applied to the
  launch memory), splits @main into "earlier operations, region, later operations", records that the later
  operations allocate nothing and write none of the arrays the region's windows read or write, and decides the
  two branch conditions of the kernel body over the grid: the accumulator is reset exactly at the first grid point
  and the result is stored exactly at the last one.
-/
import proofs.«109620_j24661702214232_1_alg».proof.Proof.Gen.Kernel.Launch
import proofs.«109620_j24661702214232_1_alg».proof.Proof.Gen.Kernel.Skeleton
import proofs.«109620_j24661702214232_1_alg».proof.Proof.Gen.Kernel.Points
import Idealize.ShloMosaic.Lib.Pipeline.FrameBody
import Idealize.ShloMosaic.Lib.Pipeline.FrameSuffix
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The stretches of host operations before the region, in order. -/
abbrev preOps : List (List (HloOp τ sig (Elt F))) := [hostOps0, hostOps0_1, hostOps0_2, hostOps0_3, hostOps0_4]

/-- Core `c`'s buffers when the region is entered: the earlier operations applied to the launch memory. -/
abbrev V0 (c : Dev nD) : Valuation τ sig (Elt F) := StableHlo.after (List.flatten (preOps (F := F))) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the earlier operations, the region, the later operations: it reduces to the region continued by the
    later operations, entered with the buffers at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain (([hostOps1] : List (List (HloOp τ sig (Elt F)))).map StableHlo.seq)) :=
  Pipeline.hmain_around cfgs 0 defs₀ 𝒱₀ m main preOps [hostOps1]
    (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩)
    (fun c => (main_chain c).trans rfl)

/-- The later operations touch TensorCore buffers only, -/
theorem sfx_sub : ∀ ops ∈ ([hostOps1] : List (List (HloOp τ sig (Elt F)))), ∀ op ∈ ops, op.bufs ⊆ StableHlo.tcRefs τ sig := by
  intro ops hops op hop
  simp only [List.mem_cons, List.mem_nil_iff, or_false] at hops
  rcases hops with rfl
  exact (List.forall_iff_forall_mem.mp hostOps1_sub) op hop
/-- allocate nothing, -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- and write no array of the region's windows (each writes only its own result buffer). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl | rfl | rfl | rfl | rfl | rfl | rfl | rfl | rfl | rfl | rfl | rfl | rfl
  all_goals intro w; fin_cases w <;> simp only [StableHlo.nullary_writes, StableHlo.unary_writes, StableHlo.binary_writes, StableHlo.reshape_writes, Finset.mem_singleton] <;> exact StableHlo.devRef_ne_of_ne (by decide)

/-! ## The body's two branch conditions over the grid -/

/-- The condition of the body's first `scf.if` (the accumulator's reset), from the grid coordinates. -/
abbrev condFirst (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first grid point only. -/
theorem hcondFirst : ∀ t : Fin cfg0.N, condFirst (grid0.coords t) ↔ t.val = 0 :=
  (by decide +kernel : ∀ t : Fin grid0.N, condFirst (grid0.coords t) ↔ t.val = 0)

/-- The condition of the body's second `scf.if` (the result's store). -/
abbrev condLast (i : grid0.Coords) : Prop := k0_cond2 i = 1#1
/-- It holds at the last grid point only. -/
theorem hcondLast : ∀ t : Fin cfg0.N, condLast (grid0.coords t) ↔ t.val = 127 :=
  (by decide +kernel : ∀ t : Fin grid0.N, condLast (grid0.coords t) ↔ t.val = 127)

/-! ## Where the windows are idle -/

theorem liveAt_0 : ∀ t : Fin cfg0.N, cfg0.idle 0 (grid0.coords t) = false := by decide +kernel
theorem liveAt_1 : ∀ t : Fin cfg0.N, cfg0.idle 1 (grid0.coords t) = false := by decide +kernel
theorem liveAt_2 : ∀ t : Fin cfg0.N, cfg0.idle 2 (grid0.coords t) = false := by decide +kernel
theorem liveAt_3 : ∀ t : Fin cfg0.N, cfg0.idle 3 (grid0.coords t) = false := by decide +kernel
/-- Away from the last point the output window is idle (the body stores nothing into it) and is not written back. -/
theorem idleAt_4 : ∀ t : Fin cfg0.N, ¬condLast (grid0.coords t) → cfg0.idle 4 (grid0.coords t) = true := by decide +kernel
theorem noFlush_4 : ∀ t : Fin cfg0.N, ¬condLast (grid0.coords t) → (cfg0.win 4).flush t = false := by decide +kernel
/-- At the last point it is live and written back. -/
theorem liveAt_4 : ∀ t : Fin cfg0.N, condLast (grid0.coords t) → cfg0.idle 4 (grid0.coords t) = false := by decide +kernel
theorem flushAt_4 : ∀ t : Fin cfg0.N, condLast (grid0.coords t) → (cfg0.win 4).flush t = true := by decide +kernel

/-! ## The staging memrefs the body is called with, and the scratch -/

abbrev ms_0 (t : Fin cfg0.N) : Memref sig .tc .vmem S1024x16 .f32 := win0_0.stage (cfg0.slots t 0)
abbrev hs_0 (t : Fin cfg0.N) : (ms_0 t).IsWhole := Facts₀.hstage0_0 ((cfg0.slots t 0).cast Facts₀.nbuf0_0)
abbrev ms_1 (t : Fin cfg0.N) : Memref sig .tc .vmem S2048x16 .f32 := win0_1.stage (cfg0.slots t 1)
abbrev hs_1 (t : Fin cfg0.N) : (ms_1 t).IsWhole := Facts₀.hstage0_1 ((cfg0.slots t 1).cast Facts₀.nbuf0_1)
abbrev ms_2 (t : Fin cfg0.N) : Memref sig .tc .vmem S1024x1 .f32 := win0_2.stage (cfg0.slots t 2)
abbrev hs_2 (t : Fin cfg0.N) : (ms_2 t).IsWhole := Facts₀.hstage0_2 ((cfg0.slots t 2).cast Facts₀.nbuf0_2)
abbrev ms_3 (t : Fin cfg0.N) : Memref sig .tc .vmem S1x2048 .f32 := win0_3.stage (cfg0.slots t 3)
abbrev hs_3 (t : Fin cfg0.N) : (ms_3 t).IsWhole := Facts₀.hstage0_3 ((cfg0.slots t 3).cast Facts₀.nbuf0_3)
abbrev ms_4 (t : Fin cfg0.N) : Memref sig .tc .vmem S1x1 .f32 := win0_4.stage (cfg0.slots t 4)
abbrev hs_4 (t : Fin cfg0.N) : (ms_4 t).IsWhole := Facts₀.hstage0_4 ((cfg0.slots t 4).cast Facts₀.nbuf0_4)
/-- The accumulator: a scoped buffer of the kernel's own, carried from point to point. -/
abbrev scM : Memref sig .tc .vmem S1x1 .f32 := Memref.whole cc0_scratch0

/-- What the region's invariant holds besides the windows: the accumulator at some contents and the generator
    register at some state. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

end Cert.Kernel.Hand

end
-- ==== Proof.K.Body.lean ====
/-
  The kernel body at one grid point, as three runs. At every point the body reads the four input blocks and the
  accumulator and stores "accumulator + (sum over the tile of exp(-d/2))" back into the accumulator; at the first
  point it first resets the accumulator to zero, and at the last point it then copies the accumulator into the
  output block. Each run is stated over whole staging buffers holding given blocks and ends with the accumulator
  (and, at the last point, the output block) holding the body's payload of those blocks.
-/
import proofs.«109620_j24661702214232_1_alg».proof.Proof.K.Setup
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Whole-block loads and stores -/

theorem zero2 : (![0, 0] : Fin 2 → ℕ) = fun _ => 0 := funext fun a => by fin_cases a <;> rfl

/-- A load of the whole block of a whole buffer holding `x` reads `x`. -/
theorem load_whole {S : Shape} {e : EltTy} (M : Memref sig .tc .vmem S e) (h : M.IsWhole) (x : S.Idx → Elt F e)
    {off : Fin S.rank → ℕ} (hz : off = fun _ => 0) (inb : ∀ a, off a + S.size a ≤ S.size a) :
    View.readAt (Elt F) M.view (Rect.unit off S.size inb).toLoadRect (h.unread x) = x := by
  simp only [View.readAt_eq_ld, h.read_unread, View.ld_unit_zero hz]

/-- A store of the whole block, made last, leaves its payload whatever was stored before. -/
theorem store_whole {S : Shape} {e : EltTy} (v : View sig .tc .vmem S e) (f : v.ty.Contents (Elt F))
    {off : Fin S.rank → ℕ} (hz : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, by
    subst hz; show y ∈ (Rect.whole S).set; rw [Rect.set_whole]; exact Finset.mem_univ y⟩), View.canon_cons_unit_zero hz]

/-! ## The three runs -/

set_option maxHeartbeats 1000000 in
/-- A middle point: neither branch is taken; the accumulator goes from `xs` to the payload over `xs`. -/
theorem run_mid (c : Dev nD) (i : grid0.Coords)
    (arg2 : Memref sig .tc .vmem S1024x16 .f32) (harg2 : arg2.IsWhole) (arg3 : Memref sig .tc .vmem S2048x16 .f32) (harg3 : arg3.IsWhole)
    (arg4 : Memref sig .tc .vmem S1024x1 .f32) (harg4 : arg4.IsWhole) (arg5 : Memref sig .tc .vmem S1x2048 .f32) (harg5 : arg5.IsWhole)
    (arg6 : Memref sig .tc .vmem S1x1 .f32) (harg6 : arg6.IsWhole) (arg7 : Memref sig .tc .vmem S1x1 .f32) (harg7 : arg7.IsWhole)
    (hc0 : ¬condFirst i) (hc1 : ¬condLast i) (x0 : Vec F S1024x16 .f32) (x1 : Vec F S2048x16 .f32) (x2 : Vec F S1024x1 .f32) (x3 : Vec F S1x2048 .f32) (xs : Vec F S1x1 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg7 fullShare xs
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg7 fullShare (k0_pay2 x0 x1 x2 x3 xs)) -∗ K ⟨⟩))
      ⊢ wp frame (wpE (defs₀ (F := F)) Variants.none c none) E (cc0__bhep_kernel i arg2 harg2 arg3 harg3 arg4 harg4 arg5 harg5 arg6 harg6 arg7 harg7) K := by
  simp only [cc0__bhep_kernel_eq_skeleton, k0_part1_eq_skeleton]; unfold cc0__bhep_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg2.eq_unread hf0; obtain rfl := harg3.eq_unread hf1; obtain rfl := harg4.eq_unread hf2
  obtain rfl := harg5.eq_unread hf3; obtain rfl := harg7.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  swap; · iexact HS
  ipureintro
  rw [store_whole _ _ zero2, load_whole _ harg2 _ zero2, load_whole _ harg3 _ zero2, load_whole _ harg4 _ zero2,
    load_whole _ harg5 _ zero2, load_whole _ harg7 _ zero2]

set_option maxHeartbeats 1000000 in
/-- The first point: the accumulator, whatever it held, is reset and then holds the payload over the reset value. -/
theorem run_first (c : Dev nD) (i : grid0.Coords)
    (arg2 : Memref sig .tc .vmem S1024x16 .f32) (harg2 : arg2.IsWhole) (arg3 : Memref sig .tc .vmem S2048x16 .f32) (harg3 : arg3.IsWhole)
    (arg4 : Memref sig .tc .vmem S1024x1 .f32) (harg4 : arg4.IsWhole) (arg5 : Memref sig .tc .vmem S1x2048 .f32) (harg5 : arg5.IsWhole)
    (arg6 : Memref sig .tc .vmem S1x1 .f32) (harg6 : arg6.IsWhole) (arg7 : Memref sig .tc .vmem S1x1 .f32) (harg7 : arg7.IsWhole)
    (hc0 : condFirst i) (hc1 : ¬condLast i) (x0 : Vec F S1024x16 .f32) (x1 : Vec F S2048x16 .f32) (x2 : Vec F S1024x1 .f32) (x3 : Vec F S1x2048 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg7 fullShare d)
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg7 fullShare (k0_pay2 x0 x1 x2 x3 (k0_pay1 (F := F)))) -∗ K ⟨⟩))
      ⊢ wp frame (wpE (defs₀ (F := F)) Variants.none c none) E (cc0__bhep_kernel i arg2 harg2 arg3 harg3 arg4 harg4 arg5 harg5 arg6 harg6 arg7 harg7) K := by
  simp only [cc0__bhep_kernel_eq_skeleton, k0_part1_eq_skeleton]; unfold cc0__bhep_kernel_skel
  unfold owns
  iintro ⟨⟨%f0, %hf0, H0⟩, ⟨%f1, %hf1, H1⟩, ⟨%f2, %hf2, H2⟩, ⟨%f3, %hf3, H3⟩, ⟨%ds, %fs, -, HS⟩, Hk⟩
  obtain rfl := harg2.eq_unread hf0; obtain rfl := harg3.eq_unread hf1; obtain rfl := harg4.eq_unread hf2
  obtain rfl := harg5.eq_unread hf3
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  swap; · iexact HS
  ipureintro
  sl_unfold_run_names
  rw [store_whole _ _ zero2, View.readCov_unit_zero _ zero2, load_whole _ harg2 _ zero2, load_whole _ harg3 _ zero2, load_whole _ harg4 _ zero2, load_whole _ harg5 _ zero2]

set_option maxHeartbeats 1000000 in
/-- The last point: the accumulator takes the payload over `xs`, and the output block a copy of it. -/
theorem run_last (c : Dev nD) (i : grid0.Coords)
    (arg2 : Memref sig .tc .vmem S1024x16 .f32) (harg2 : arg2.IsWhole) (arg3 : Memref sig .tc .vmem S2048x16 .f32) (harg3 : arg3.IsWhole)
    (arg4 : Memref sig .tc .vmem S1024x1 .f32) (harg4 : arg4.IsWhole) (arg5 : Memref sig .tc .vmem S1x2048 .f32) (harg5 : arg5.IsWhole)
    (arg6 : Memref sig .tc .vmem S1x1 .f32) (harg6 : arg6.IsWhole) (arg7 : Memref sig .tc .vmem S1x1 .f32) (harg7 : arg7.IsWhole)
    (hc0 : ¬condFirst i) (hc1 : condLast i) (x0 : Vec F S1024x16 .f32) (x1 : Vec F S2048x16 .f32) (x2 : Vec F S1024x1 .f32) (x3 : Vec F S1x2048 .f32) (xs : Vec F S1x1 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg7 fullShare xs ∗ (∃ d, owns (c : Thread nD τ) arg6 fullShare d)
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg7 fullShare (k0_pay2 x0 x1 x2 x3 xs)
            ∗ owns (c : Thread nD τ) arg6 fullShare (k0_pay2 x0 x1 x2 x3 xs)) -∗ K ⟨⟩))
      ⊢ wp frame (wpE (defs₀ (F := F)) Variants.none c none) E (cc0__bhep_kernel i arg2 harg2 arg3 harg3 arg4 harg4 arg5 harg5 arg6 harg6 arg7 harg7) K := by
  simp only [cc0__bhep_kernel_eq_skeleton, k0_part1_eq_skeleton]; unfold cc0__bhep_kernel_skel
  unfold owns
  iintro ⟨⟨%f0, %hf0, H0⟩, ⟨%f1, %hf1, H1⟩, ⟨%f2, %hf2, H2⟩, ⟨%f3, %hf3, H3⟩, ⟨%fs, %hfs, HS⟩, ⟨%d6, %f6, -, H6⟩, Hk⟩
  obtain rfl := harg2.eq_unread hf0; obtain rfl := harg3.eq_unread hf1; obtain rfl := harg4.eq_unread hf2
  obtain rfl := harg5.eq_unread hf3; obtain rfl := harg7.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [HS]
  · iexists _; isplitr
    swap; · iexact HS
    ipureintro
    sl_unfold_run_names
    rw [store_whole _ _ zero2, load_whole _ harg2 _ zero2, load_whole _ harg3 _ zero2, load_whole _ harg4 _ zero2, load_whole _ harg5 _ zero2, load_whole _ harg7 _ zero2]
  iexists _; isplitr
  swap; · iexact H6
  ipureintro
  sl_unfold_run_names
  rw [store_whole _ _ zero2, View.readCov_unit_zero _ zero2, load_whole _ harg2 _ zero2, load_whole _ harg3 _ zero2, load_whole _ harg4 _ zero2, load_whole _ harg5 _ zero2, load_whole _ harg7 _ zero2]

end Cert.Kernel.Hand

end
-- ==== Proof.K.Data.lean ====
/-
  The proof data of the region. The accumulator after grid point n is defined by recursion on n: at the first
  point the body's payload over the reset value, afterwards the payload over what the point before left. Every input
  window's staging buffer holds its block of the array at every point; the output block is stored at the last point
  only, where it receives the accumulator. Between points the region's invariant holds the accumulator at exactly
  that recursion's value. The two windows that read the sample matrix hold it at the two halves of the full share.
-/
import proofs.«109620_j24661702214232_1_alg».proof.Proof.K.Body

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The accumulator, point by point -/

/-- What the accumulator holds after the body at position `n` of the grid. -/
def accAt (c : Dev nD) : (n : ℕ) → n < cfg0.N → Vec F S1x1 .f32
  | 0, hn => k0_pay2 (iblk m c 0 ⟨0, hn⟩) (iblk m c 1 ⟨0, hn⟩) (iblk m c 2 ⟨0, hn⟩) (iblk m c 3 ⟨0, hn⟩) (k0_pay1 (F := F))
  | n + 1, hn => k0_pay2 (iblk m c 0 ⟨n + 1, hn⟩) (iblk m c 1 ⟨n + 1, hn⟩) (iblk m c 2 ⟨n + 1, hn⟩) (iblk m c 3 ⟨n + 1, hn⟩)
      (accAt c n (Nat.lt_of_succ_lt hn))

theorem accAt_zero (c : Dev nD) (t : Fin cfg0.N) (h : t.val = 0) :
    accAt m c t.val t.isLt = k0_pay2 (iblk m c 0 t) (iblk m c 1 t) (iblk m c 2 t) (iblk m c 3 t) (k0_pay1 (F := F)) := by
  obtain ⟨n, hn⟩ := t
  cases n with
  | zero => rfl
  | succ n => exact absurd h (Nat.succ_ne_zero n)

theorem accAt_pos (c : Dev nD) (t : Fin cfg0.N) (h : t.val ≠ 0) :
    accAt m c t.val t.isLt = k0_pay2 (iblk m c 0 t) (iblk m c 1 t) (iblk m c 2 t) (iblk m c 3 t)
      (accAt m c (t.val - 1) (Nat.lt_of_le_of_lt (Nat.sub_le _ _) t.isLt)) := by
  obtain ⟨n, hn⟩ := t
  cases n with
  | zero => exact absurd rfl h
  | succ n => rfl

/-- The region's invariant before position `n`: before the first point the accumulator at anything; afterwards
    at what the point before left; the generator register at some state throughout. -/
def PhiS (c : Dev nD) : (n : ℕ) → n ≤ cfg0.N → sProp 𝕄
  | 0, _ => Pipeline.ΦA spec0 c
  | n + 1, hn => iprop(iprop(owns (c : Thread nD τ) scM fullShare (accAt m c n hn)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM fullShare (accAt m c n hn)) ∗ (∃ r, prngReg c r)) := rfl

theorem PhiS_pos (c : Dev nD) (n : ℕ) (h : n ≤ cfg0.N) (hz : n ≠ 0) :
    PhiS m c n h = iprop(iprop(owns (c : Thread nD τ) scM fullShare (accAt m c (n - 1) (by omega))) ∗ (∃ r, prngReg c r)) := by
  cases n with
  | zero => exact absurd rfl hz
  | succ n => rfl

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => accAt m c t.val t.isLt
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = accAt m c t.val t.isLt := by dsimp only [dats]

/-- Each input's current staging buffer holds its block at every point, fetched there or not. -/
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)

/-! ## The body obligation at a point -/

def bodyPre (c : Dev nD) (t : Fin cfg0.N) : sProp 𝕄 :=
  iprop((dats m 0 c).Φ t.castSucc ∗ (dats m 0 c).owesAt () t.castSucc
    ∗ (∃ d, owns (c : Thread nD τ) (ms_0 t) fullShare ((dats m 0 c).before 0 t d))
    ∗ (∃ d, owns (c : Thread nD τ) (ms_1 t) fullShare ((dats m 0 c).before 1 t d))
    ∗ (∃ d, owns (c : Thread nD τ) (ms_2 t) fullShare ((dats m 0 c).before 2 t d))
    ∗ (∃ d, owns (c : Thread nD τ) (ms_3 t) fullShare ((dats m 0 c).before 3 t d))
    ∗ (∃ d, owns (c : Thread nD τ) (ms_4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 4800000 in
/-- The body at any point: by the position in the grid, one of the three runs. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).owesAt () t.succ = (dats m 0 c).owesAt () t.castSucc from rfl]
  rw [show (dats m 0 c).Φ t.succ = PhiS m c (t.val + 1) t.isLt from rfl, PhiS_succ]
  have hN : t.val < 128 := lt_of_lt_of_eq t.isLt (show cfg0.N = 128 from N_0)
  rw [show (dats m 0 c).leavesExact 0 t = owns (c : Thread nD τ) (ms_0 t) fullShare ((dats m 0 c).after 0 t) from by
    unfold Dat.leavesExact; rw [liveAt_0 t], after_0]
  rw [show (dats m 0 c).leavesExact 1 t = owns (c : Thread nD τ) (ms_1 t) fullShare ((dats m 0 c).after 1 t) from by
    unfold Dat.leavesExact; rw [liveAt_1 t], after_1]
  rw [show (dats m 0 c).leavesExact 2 t = owns (c : Thread nD τ) (ms_2 t) fullShare ((dats m 0 c).after 2 t) from by
    unfold Dat.leavesExact; rw [liveAt_2 t], after_2]
  rw [show (dats m 0 c).leavesExact 3 t = owns (c : Thread nD τ) (ms_3 t) fullShare ((dats m 0 c).after 3 t) from by
    unfold Dat.leavesExact; rw [liveAt_3 t], after_3]
  by_cases hz : t.val = 0
  · -- the first point
    have h0 : condFirst (grid0.coords t) := (hcondFirst t).mpr hz
    have h1 : ¬condLast (grid0.coords t) := fun h => by have := (hcondLast t).mp h; omega
    rw [Dat.leavesExact_idle (dats m 0 c) 4 t (idleAt_4 t h1) (noFlush_4 t h1)]
    rw [accAt_zero m c t hz]
    rw [PhiS_castSucc m c t, PhiS_zero m c _ _ hz, PhiA_eq]
    iintro ⟨⟨HS, Hg⟩, Ho, ⟨%d0, H0⟩, ⟨%d1, H1⟩, ⟨%d2, H2⟩, ⟨%d3, H3⟩, H4⟩
    iapply (run_first c (grid0.coords t) _ _ _ _ _ _ _ _ _ _ _ _ h0 h1 (iblk m c 0 t) (iblk m c 1 t) (iblk m c 2 t) (iblk m c 3 t) Set.univ _)
    isplitl [H0]; · iexact H0
    isplitl [H1]; · iexact H1
    isplitl [H2]; · iexact H2
    isplitl [H3]; · iexact H3
    isplitl [HS]; · iexact HS
    iintro ⟨H0, H1, H2, H3, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    iexact H4
  · by_cases hl : t.val = 127
    · -- the last point
      have h0 : ¬condFirst (grid0.coords t) := fun h => hz ((hcondFirst t).mp h)
      have h1 : condLast (grid0.coords t) := (hcondLast t).mpr hl
      rw [show (dats m 0 c).leavesExact 4 t = owns (c : Thread nD τ) (ms_4 t) fullShare ((dats m 0 c).after 4 t) from by
        unfold Dat.leavesExact; rw [liveAt_4 t h1], after_4]
      rw [accAt_pos m c t hz]
      rw [PhiS_castSucc m c t, PhiS_pos m c _ _ hz]
      iintro ⟨⟨HS, Hg⟩, Ho, ⟨%d0, H0⟩, ⟨%d1, H1⟩, ⟨%d2, H2⟩, ⟨%d3, H3⟩, ⟨%d4, H4⟩⟩
      iapply (run_last c (grid0.coords t) _ _ _ _ _ _ _ _ _ _ _ _ h0 h1 (iblk m c 0 t) (iblk m c 1 t) (iblk m c 2 t) (iblk m c 3 t) _ Set.univ _)
      isplitl [H0]; · iexact H0
      isplitl [H1]; · iexact H1
      isplitl [H2]; · iexact H2
      isplitl [H3]; · iexact H3
      isplitl [HS]; · iexact HS
      isplitl [H4]; · iexists _; iexact H4
      iintro ⟨H0, H1, H2, H3, HS, H4⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      iexact H4
    · -- a middle point
      have h0 : ¬condFirst (grid0.coords t) := fun h => hz ((hcondFirst t).mp h)
      have h1 : ¬condLast (grid0.coords t) := fun h => hl ((hcondLast t).mp h)
      rw [Dat.leavesExact_idle (dats m 0 c) 4 t (idleAt_4 t h1) (noFlush_4 t h1)]
      rw [accAt_pos m c t hz]
      rw [PhiS_castSucc m c t, PhiS_pos m c _ _ hz]
      iintro ⟨⟨HS, Hg⟩, Ho, ⟨%d0, H0⟩, ⟨%d1, H1⟩, ⟨%d2, H2⟩, ⟨%d3, H3⟩, H4⟩
      iapply (run_mid c (grid0.coords t) _ _ _ _ _ _ _ _ _ _ _ _ h0 h1 (iblk m c 0 t) (iblk m c 1 t) (iblk m c 2 t) (iblk m c 3 t) _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the same back, the accumulator's contents forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 128 := N_0; omega), PhiA_eq]
  iintro ⟨HS, Hg⟩
  isplitl [HS]
  · iexists _; iexact HS
  iexact Hg

end Cert.Kernel.Hand

end
-- ==== Proof.LibSharedFrame.lean ====
/-
  A one-region program whose input windows may read THE SAME array, with host operations before and after the
  region: the run from the launch to the end.

  When two windows of a pipeline stage blocks of one array, the array's buffer cannot be handed whole to each of
  them. It is held once, at the full share, before the region; at the region's entry its share is dealt among the
  windows on it (`hdeal`), each window then holds the array read-only at its part, and at the region's exit the parts
  are put together again (`hjoin` / `hdeal'`), so that the operations after the region find every unscoped buffer
  held whole at the full share, exactly as the operations before the region did. Those later operations may read
  anything unscoped and must write no array of the pipeline.

  The conclusion reads the final memory: each window's array at what the pipeline's write-backs leave in it (an
  input array: its entry contents), and every unscoped buffer that is no window's array at what the later operations
  compute from the contents at the region's exit.
-/
import Idealize.ShloMosaic.Lib.Pipeline.FrameSuffix

noncomputable section

namespace Cert.SharedFrame

open Idealize.ShloMosaic Idealize.ShloMosaic.Pipeline
open Idealize.SL
open Idealize.SL.BI (sProp bigSep bigSep_map bigSep_union bigSep_congr)
open scoped Idealize.SL.BI
open Idealize.SL.BI.BIBase Idealize.SL.BI.Laws Idealize.SL.Sem Idealize.SL.ProofMode
open Idealize.SL.RA
open TcCoe
open Idealize.ShloMosaic.Rounds

variable {nD : Nat} {τ : Topo} {sig : RefSig} {Val : EltTy → Type}
variable {Λ₀ : Idealize.SL.Sem.Labels} {P : Type} [Fintype P] [DecidableEq P] [∀ e, Nonempty (Val e)]

local notation "𝕄" => MT nD τ sig Unit Val ℕ (UR sig nD τ) ℕ

variable (cfgs : P → Cfg sig Λ₀)
  (dats : (p : P) → (c : Dev nD) → Dat τ Val Unit ℕ (UR sig nD τ) ℕ (cfgs p) c) (p : P)
  (defs₀ : Defs nD τ sig Val Λ₀) (𝒱₀ : Variants)

local notation "cfg" => cfgs p
local notation "𝔻" => Pipeline.defs (fun q => Cfg.toPCfg (Val := Val) (cfgs q)) defs₀

/-- The contents of core `c`'s unscoped buffers after the later operations `opss`, run from the contents `W c` the
    region's exit leaves. -/
abbrev finalAt (W : Dev nD → Valuation τ sig Val) (opss : List (List (HloOp τ sig Val))) (c : Dev nD) (b : Ref sig .tc) :
    Buf Val ((c.tc : Thread nD τ).loc b) :=
  StableHlo.after opss.flatten (W c) (Proc.devRef .tc b)

/-- THE RUN. `hcell`, `hw`, `hne`, `harr`, `hstage`: the layout the launch decides (the arrays need not be distinct).
    `hmain`: @main is earlier operations, the region, the later operations `opss`. `V₀ c`: the contents at the region's
    entry; `W c`: at its exit, equal to `V₀ c` off the windows' arrays (`hWrest`). `hdeal`: the arrays' buffers, whole
    at the entry contents, make the proof data's arrays at entry; `hjoin` and `hdeal'`: at the exit the proof data's
    arrays and the buffers whole at `W c` are each other. The later operations touch TensorCore buffers only, allocate
    nothing, and write no array. -/
theorem θ_run_around_shared
    (hcell : Function.Injective (cellOf (nD := nD) (τ := τ) cfgs))
    (hw : WinFacts₀ (cfg).spec) (hne : ∀ w : Fin (cfg).W, 0 < ((cfg).spec w).block.numel)
    (harr : ∀ w, ((cfg).spec w).arr.IsWhole) (hstage : ∀ w s, (((cfg).spec w).stage s).IsWhole)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V₀ W : Dev nD → Valuation τ sig Val) (opss : List (List (HloOp τ sig Val)))
    (hsub : ∀ ops ∈ opss, ∀ op ∈ ops, op.bufs ⊆ StableHlo.tcRefs τ sig)
    (hfresh : ∀ ops ∈ opss, ∀ op ∈ ops, op.fresh = ∅)
    (hkeep : ∀ ops ∈ opss, ∀ op ∈ ops, ∀ w, Proc.devRef .tc (arrRef (cfg).spec w) ∉ op.writes)
    (hmain : HMainK (Ix := Unit) (Name := ℕ) (U := UR sig nD τ) (Lvl := ℕ) cfgs p defs₀ 𝒱₀ m main
      (fun c b => V₀ c (Proc.devRef .tc b)) (fun _ => chain (opss.map StableHlo.seq)))
    (hWrest : ∀ c, ∀ b ∈ restRefs sig (cfg).spec, W c (Proc.devRef .tc b) = V₀ c (Proc.devRef .tc b))
    (hdeal : ∀ c, (arrBufs (cfg).spec c (fun b => V₀ c (Proc.devRef .tc b)) : sProp 𝕄) ⊢ (dats p c).arrays ((dats p c).arrAt · 0))
    (hjoin : ∀ c, (dats p c).arrays ((dats p c).arrAt · (cfg).N) ⊢ (arrBufs (cfg).spec c (fun b => W c (Proc.devRef .tc b)) : sProp 𝕄))
    (hdeal' : ∀ c, (arrBufs (cfg).spec c (fun b => W c (Proc.devRef .tc b)) : sProp 𝕄) ⊢ (dats p c).arrays ((dats p c).arrAt · (cfg).N))
    (hin : ∀ c, ΦA (cfg).spec c ⊢ (dats p c).Φ 0) (hout : ∀ c, (dats p c).Φ (Fin.last (cfg).N) ⊢ ΦA (cfg).spec c) :
    θ_run 𝔻 (onTc main) (s₀ m g) (fun r => ∀ c : Dev nD,
      (∀ w, r.2.mem (((cfg).spec w).arr.view.loc (c.tc : Thread nD τ)) = (dats p c).arrAt w (cfg).N)
        ∧ ∀ b ∈ restRefs sig (cfg).spec, r.2.mem ((c.tc : Thread nD τ).loc b) = finalAt W opss c b) := by
  classical
  -- the later operations write no array: an array's buffer holds after them what it held at the exit
  have hsame : ∀ c (w : Fin (cfg).W), StableHlo.after opss.flatten (W c) (Proc.devRef .tc (arrRef (cfg).spec w)) = W c (Proc.devRef .tc (arrRef (cfg).spec w)) :=
    fun c w => StableHlo.after_of_forall_not_mem _ _ fun op hop => by
      obtain ⟨ops, hops, hop⟩ := List.mem_flatten.mp hop
      exact hkeep ops hops op hop w
  have hcell' : Function.Injective (cellOf (nD := nD) (τ := τ) (pin (fun q => (cfgs q).toPCfg (Val := Val)) (fun q => (cfgs q).toPCfg_adm))) := hcell
  exact θ_run_region_pf_tail (fun q => (cfgs q).toPCfg (Val := Val)) (fun q => (cfgs q).toPCfg_adm) dats () hcell' p hw
    (OwnSemFacts.none (cfg).spec) (PreFacts.none _) emb₁ defs₀ 𝒱₀ m g main
    (fun _ => chain (opss.map StableHlo.seq)) hbody hne harr hstage howed
    (G := fun _ => iprop(emp)) (u₀ := initOf (cells (pin (fun q => (cfgs q).toPCfg (Val := Val)) (fun q => (cfgs q).toPCfg_adm)) hcell') (launchToks (pin (fun q => (cfgs q).toPCfg (Val := Val)) (fun q => (cfgs q).toPCfg_adm)) hcell'))
    (hu₀ := by
      iintro Hu; imodintro
      isplitl [Hu]; · iapply (show (ownU _ : sProp 𝕄) ⊢ BI.own (emb₁ (initOf (cells (pin (fun q => (cfgs q).toPCfg (Val := Val)) (fun q => (cfgs q).toPCfg_adm)) hcell') (launchToks (pin (fun q => (cfgs q).toPCfg (Val := Val)) (fun q => (cfgs q).toPCfg_adm)) hcell'))) from .rfl); iexact Hu
      iapply (show (BI.emp : sProp 𝕄) ⊢ bigSep Finset.univ (fun _ : Dev nD => (BI.emp : sProp 𝕄)) from by rw [BI.bigSep_emp_const])
      iempintro)
    (V := fun c b => V₀ c (Proc.devRef .tc b)) (hmain := hmain)
    (hsplit := hdeal)
    (hpf := fun _ k => k.elim0)
    (X := fun c => iprop(∃ r, prngReg c r)) (Y := fun c => iprop(∃ r, prngReg c r))
    (Z := fun c => unscopedRestP (Ix := Unit) (Name := ℕ) (U := UR sig nD τ) (Lvl := ℕ) Prefetch.none (cfg).spec c (fun b => V₀ c (Proc.devRef .tc b)))
    (Z' := fun c => unscopedRestP (Ix := Unit) (Name := ℕ) (U := UR sig nD τ) (Lvl := ℕ) Prefetch.none (cfg).spec c (finalAt W opss c))
    (hX := fun c => by
      iintro ⟨HU, -, -, -, Hp, -⟩; imodintro
      isplitl [Hp]; · iexists _; iexact Hp
      iexact HU)
    (hin := fun c => (show _ ⊢ ΦA (cfg).spec c by
      unfold ΦA; iintro ⟨Hp, -, Hr⟩
      isplitl [Hr] <;> iassumption).trans (hin c))
    (hout := fun c => (hout c).trans (by
      rw [ownSems0_none]; unfold ΦA
      iintro ⟨Hr, Hp⟩
      isplitl [Hp]; · iexact Hp
      isplitr; · iempintro
      iexact Hr))
    (htail := fun c Q' => by
      -- every unscoped buffer, whole at the exit contents
      have hall : iprop((dats p c).arrays ((dats p c).arrAt · (cfg).N)
            ∗ unscopedRestP (Ix := Unit) (Name := ℕ) (U := UR sig nD τ) (Lvl := ℕ) Prefetch.none (cfg).spec c (fun b => V₀ c (Proc.devRef .tc b)))
          ⊢ (StableHlo.held (c.tc : Thread nD τ) (ucRefs τ sig) (W c) : sProp 𝕄) := by
        rw [← unscopedBufs_held (Ix := Unit) (Name := ℕ) (U := UR sig nD τ) (Lvl := ℕ) c (W c),
          unscopedBufs_split₀ cfgs p hw.arr_unscoped c (fun b => W c (Proc.devRef .tc b)), unscopedRestP_none]
        refine sep_mono (hjoin c) (Entails.of_eq ?_)
        unfold unscopedRest
        exact bigSep_congr fun b hb => by dsimp only; rw [hWrest c b hb]
      -- and back, after the later operations
      have hback : (StableHlo.held (c.tc : Thread nD τ) (ucRefs τ sig) (StableHlo.after opss.flatten (W c)) : sProp 𝕄)
          ⊢ iprop((dats p c).arrays ((dats p c).arrAt · (cfg).N)
            ∗ unscopedRestP (Ix := Unit) (Name := ℕ) (U := UR sig nD τ) (Lvl := ℕ) Prefetch.none (cfg).spec c (finalAt W opss c)) := by
        rw [← unscopedBufs_held (Ix := Unit) (Name := ℕ) (U := UR sig nD τ) (Lvl := ℕ) c (StableHlo.after opss.flatten (W c)),
          unscopedBufs_split₀ cfgs p hw.arr_unscoped c (fun b => StableHlo.after opss.flatten (W c) (Proc.devRef .tc b)), unscopedRestP_none]
        refine sep_mono ((Entails.of_eq ?_).trans (hdeal' c)) .rfl
        unfold arrBufs
        exact bigSep_congr fun b hb => by
          obtain ⟨w, -, rfl⟩ := Finset.mem_image.mp hb
          dsimp only; rw [hsame c w]
      rw [← List.append_nil (opss.map StableHlo.seq)]
      iintro ⟨Hk, Hb, Ha, Hz⟩
      iapply (wp_seqs_then (fun q => (cfgs q).toPCfg (Val := Val)) defs₀ 𝒱₀ c (ucRefs τ sig) [] opss
        (fun ops ho op h => sub_ucRefs op (hsub ops ho op h)) hfresh (W c)) $$ [Hb Ha Hz]
      · isplitl [Hb]; · iexact Hb
        iapply hall; isplitl [Ha] <;> iassumption
      iintro ⟨-, H⟩
      rw [chain_nil, wp_pure]
      imodintro
      iapply Hk
      iapply hback; iexact H)
    (QY := fun c s => ∀ b ∈ restRefsP sig Prefetch.none (cfg).spec, s.mem ((c.tc : Thread nD τ).loc b) = finalAt W opss c b)
    (hY := fun c s' => by
      iintro ⟨-, HU, HSI⟩
      unfold unscopedRestP
      imodintro
      iapply (pointsTo_read_all (restRefsP sig Prefetch.none (cfg).spec) (fun b => (c.tc : Thread nD τ).loc b) (finalAt W opss c) s')
      isplitl [HU] <;> iassumption)
    (hQ := fun s h c => ⟨(h c).1, fun b hb => (h c).2.2 b (by
      unfold restRefsP
      rw [show (Finset.univ : Finset (Fin 0)).image (Prefetch.none (sig := sig)).ref = ∅ from rfl, Finset.sdiff_empty]
      exact hb)⟩)

end Cert.SharedFrame

end
-- ==== Proof.K.Run.lean ====
/-
  The run of the whole program. The sample matrix is read by two windows of the region, so its buffer is held once
  at the full share around the region and dealt in two halves to those windows inside it; the other three arrays
  are held whole. At the region's exit only the one-element result array has changed. From these three dealings and
  the per-point obligation, every weakly fair execution terminates with each window's array at what the write-backs
  leave and every other buffer at what the later host operations compute from the exit contents.
-/
import proofs.«109620_j24661702214232_1_alg».proof.Proof.K.Data
import proofs.«109620_j24661702214232_1_alg».proof.Proof.LibSharedFrame

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

open Classical in
/-- Core `c`'s buffers at the region's exit: as at its entry, but the result array at what the last grid point wrote back. -/
def Wx (c : Dev nD) : Valuation τ sig (Elt F) :=
  Function.update (V0 m c) (Proc.devRef .tc main_v31) ((dats m 0 c).arrAt 4 cfg0.N)

theorem Wx_v31 (c : Dev nD) : Wx m c (Proc.devRef .tc main_v31) = (dats m 0 c).arrAt 4 cfg0.N := by
  unfold Wx; exact Function.update_self _ _ _

theorem Wx_ne (c : Dev nD) (b : Ref sig .tc) (h : b ≠ main_v31) : Wx m c (Proc.devRef .tc b) = V0 m c (Proc.devRef .tc b) := by
  unfold Wx; exact Function.update_of_ne (StableHlo.devRef_ne_of_ne h) _ _

/-- The four buffers behind the five windows. -/
theorem arrImage : Finset.univ.image (Pipeline.arrRef spec0) = ([main_v26, main_v29, main_v30, main_v31] : List (Ref sig .tc)).toFinset := by decide

/-- A conjunction over those four buffers, one by one. -/
theorem bigSep_arr {M : Type} [URA M] (Φ : Ref sig .tc → sProp M) :
    bigSep (Finset.univ.image (Pipeline.arrRef spec0)) Φ = iprop(Φ main_v26 ∗ Φ main_v29 ∗ Φ main_v30 ∗ Φ main_v31) :=
  bigSep_eq_bigSepL_of_eq [main_v26, main_v29, main_v30, main_v31] arrImage (by decide) Φ

/-- Off the windows' arrays nothing changes across the region. -/
theorem hWrest (c : Dev nD) : ∀ b ∈ Pipeline.restRefs sig spec0, Wx m c (Proc.devRef .tc b) = V0 m c (Proc.devRef .tc b) := by
  intro b hb
  refine Wx_ne m c b fun h => ?_
  subst h
  exact (Finset.mem_sdiff.mp hb).2 (Finset.mem_image.mpr ⟨4, Finset.mem_univ _, rfl⟩)

/-- An input window's array is never written: it holds its entry contents throughout. -/
theorem arrAt_0 (c : Dev nD) (n : ℕ) : (dats m 0 c).arrAt 0 n = V m c main_v26 := ((dats m 0 c).arrAt_in 0 rfl n).trans (A_eq m c 0)
theorem arrAt_1 (c : Dev nD) (n : ℕ) : (dats m 0 c).arrAt 1 n = V m c main_v26 := ((dats m 0 c).arrAt_in 1 rfl n).trans (A_eq m c 1)
theorem arrAt_2 (c : Dev nD) (n : ℕ) : (dats m 0 c).arrAt 2 n = V m c main_v29 := ((dats m 0 c).arrAt_in 2 rfl n).trans (A_eq m c 2)
theorem arrAt_3 (c : Dev nD) (n : ℕ) : (dats m 0 c).arrAt 3 n = V m c main_v30 := ((dats m 0 c).arrAt_in 3 rfl n).trans (A_eq m c 3)

/-! ## The windows' arrays as whole buffers -/

theorem share_0 (c : Dev nD) : (dats m 0 c).share 0 = fullShare.left := by unfold Dat.share; simp only [dats]; rfl
theorem share_1 (c : Dev nD) : (dats m 0 c).share 1 = fullShare.right := by unfold Dat.share; simp only [dats]; rfl
theorem share_2 (c : Dev nD) : (dats m 0 c).share 2 = fullShare := by unfold Dat.share; simp only [dats]; rfl
theorem share_3 (c : Dev nD) : (dats m 0 c).share 3 = fullShare := by unfold Dat.share; simp only [dats]; rfl
theorem share_4 (c : Dev nD) : (dats m 0 c).share 4 = fullShare := by unfold Dat.share; simp only [dats]; rfl

theorem pt_0 (c : Dev nD) (q : PosShare TreeShare) (f : Buf (Elt F) ((cfg0.win 0).arr.view.loc (c.tc : Thread nD τ))) :
    ((cfg0.win 0).arr.view.loc (c.tc : Thread nD τ) ↦[(cfg0.win 0).arr.view.set]{q} f : sProp 𝕄) = ((c.tc : Thread nD τ).loc main_v26 ↦{q} f) := by
  rw [(arr_whole0 0).set_eq_univ]
theorem pt_1 (c : Dev nD) (q : PosShare TreeShare) (f : Buf (Elt F) ((cfg0.win 1).arr.view.loc (c.tc : Thread nD τ))) :
    ((cfg0.win 1).arr.view.loc (c.tc : Thread nD τ) ↦[(cfg0.win 1).arr.view.set]{q} f : sProp 𝕄) = ((c.tc : Thread nD τ).loc main_v26 ↦{q} f) := by
  rw [(arr_whole0 1).set_eq_univ]
theorem pt_2 (c : Dev nD) (q : PosShare TreeShare) (f : Buf (Elt F) ((cfg0.win 2).arr.view.loc (c.tc : Thread nD τ))) :
    ((cfg0.win 2).arr.view.loc (c.tc : Thread nD τ) ↦[(cfg0.win 2).arr.view.set]{q} f : sProp 𝕄) = ((c.tc : Thread nD τ).loc main_v29 ↦{q} f) := by
  rw [(arr_whole0 2).set_eq_univ]
theorem pt_3 (c : Dev nD) (q : PosShare TreeShare) (f : Buf (Elt F) ((cfg0.win 3).arr.view.loc (c.tc : Thread nD τ))) :
    ((cfg0.win 3).arr.view.loc (c.tc : Thread nD τ) ↦[(cfg0.win 3).arr.view.set]{q} f : sProp 𝕄) = ((c.tc : Thread nD τ).loc main_v30 ↦{q} f) := by
  rw [(arr_whole0 3).set_eq_univ]
theorem pt_4 (c : Dev nD) (q : PosShare TreeShare) (f : Buf (Elt F) ((cfg0.win 4).arr.view.loc (c.tc : Thread nD τ))) :
    ((cfg0.win 4).arr.view.loc (c.tc : Thread nD τ) ↦[(cfg0.win 4).arr.view.set]{q} f : sProp 𝕄) = ((c.tc : Thread nD τ).loc main_v31 ↦{q} f) := by
  rw [(arr_whole0 4).set_eq_univ]

/-- The arrays as conjuncts over whole buffers, at any contents. -/
theorem arrays_eq' (c : Dev nD) (G : (w : Fin cfg0.W) → Buf (Elt F) ((cfg0.win w).arr.view.loc (c.tc : Thread nD τ))) :
    ((dats m 0 c).arrays G : sProp 𝕄) = iprop(((c.tc : Thread nD τ).loc main_v26 ↦{fullShare.left} G 0) ∗ ((c.tc : Thread nD τ).loc main_v26 ↦{fullShare.right} G 1)
      ∗ ((c.tc : Thread nD τ).loc main_v29 ↦{fullShare} G 2) ∗ ((c.tc : Thread nD τ).loc main_v30 ↦{fullShare} G 3) ∗ ((c.tc : Thread nD τ).loc main_v31 ↦{fullShare} G 4)) := by
  unfold Dat.arrays
  rw [bigSep_W0]
  exact congrArg₂ BI.sep ((congrArg (fun q => _ ↦[_]{q} _) (share_0 m c)).trans (pt_0 c _ _))
    (congrArg₂ BI.sep ((congrArg (fun q => _ ↦[_]{q} _) (share_1 m c)).trans (pt_1 c _ _))
      (congrArg₂ BI.sep ((congrArg (fun q => _ ↦[_]{q} _) (share_2 m c)).trans (pt_2 c _ _))
        (congrArg₂ BI.sep ((congrArg (fun q => _ ↦[_]{q} _) (share_3 m c)).trans (pt_3 c _ _))
          ((congrArg (fun q => _ ↦[_]{q} _) (share_4 m c)).trans (pt_4 c _ _)))))

theorem arrAt_zero (c : Dev nD) (w : Fin cfg0.W) : (dats m 0 c).arrAt w 0 = V m c (Pipeline.arrRef spec0 w) := by
  show (dats m 0 c).A w = _
  exact A_eq m c w

/-- At entry: the sample matrix's buffer is dealt in two halves to the two windows that read it. -/
theorem hdeal (c : Dev nD) : (Pipeline.arrBufs spec0 c (fun b => V0 m c (Proc.devRef .tc b)) : sProp 𝕄) ⊢ (dats m 0 c).arrays ((dats m 0 c).arrAt · 0) := by
  unfold Pipeline.arrBufs
  rw [bigSep_arr]
  beta_reduce
  rw [arrays_eq', arrAt_zero, arrAt_zero, arrAt_zero, arrAt_zero, arrAt_zero]
  iintro ⟨H26, H29, H30, H31⟩
  ihave H26 := (pointsTo_share (PosShare.mem_left_op_right fullShare)).1 $$ H26
  icases H26 with ⟨Ha, Hb⟩
  isplitl [Ha]; · iexact Ha
  isplitl [Hb]; · iexact Hb
  isplitl [H29]; · iexact H29
  isplitl [H30]; · iexact H30
  iexact H31

/-- At exit: the two halves are put together again; the result array holds what the last point wrote back. -/
theorem hjoin (c : Dev nD) : (dats m 0 c).arrays ((dats m 0 c).arrAt · cfg0.N) ⊢ (Pipeline.arrBufs spec0 c (fun b => Wx m c (Proc.devRef .tc b)) : sProp 𝕄) := by
  unfold Pipeline.arrBufs
  rw [bigSep_arr]
  beta_reduce
  rw [arrays_eq', arrAt_0, arrAt_1, arrAt_2, arrAt_3, Wx_ne m c main_v26 (by decide), Wx_ne m c main_v29 (by decide), Wx_ne m c main_v30 (by decide), Wx_v31]
  iintro ⟨Ha, Hb, H29, H30, H31⟩
  isplitl [Ha Hb]
  · iapply (pointsTo_share (PosShare.mem_left_op_right fullShare)).2
    isplitl [Ha]; · iexact Ha
    iexact Hb
  isplitl [H29]; · iexact H29
  isplitl [H30]; · iexact H30
  iexact H31

/-- And dealt again for the later operations' frame. -/
theorem hdeal' (c : Dev nD) : (Pipeline.arrBufs spec0 c (fun b => Wx m c (Proc.devRef .tc b)) : sProp 𝕄) ⊢ (dats m 0 c).arrays ((dats m 0 c).arrAt · cfg0.N) := by
  unfold Pipeline.arrBufs
  rw [bigSep_arr]
  beta_reduce
  rw [arrays_eq', arrAt_0, arrAt_1, arrAt_2, arrAt_3, Wx_ne m c main_v26 (by decide), Wx_ne m c main_v29 (by decide), Wx_ne m c main_v30 (by decide), Wx_v31]
  iintro ⟨H26, H29, H30, H31⟩
  ihave H26 := (pointsTo_share (PosShare.mem_left_op_right fullShare)).1 $$ H26
  icases H26 with ⟨Ha, Hb⟩
  isplitl [Ha]; · iexact Ha
  isplitl [Hb]; · iexact Hb
  isplitl [H29]; · iexact H29
  isplitl [H30]; · iexact H30
  iexact H31

/-! ## The run -/

/-- Every weakly fair execution of @main terminates; each window's array ends at what the write-backs leave in it, and
    every other buffer at what the later host operations compute from the contents at the region's exit. -/
theorem run_main : θ_run defs (onTc (τ := τ) (main (F := F))) (s₀ m ρ) (fun r => ∀ c : Dev nD,
      (∀ w, r.2.mem ((spec0 w).arr.view.loc (c.tc : Thread nD τ)) = (dats m 0 c).arrAt w cfg0.N)
        ∧ ∀ b ∈ Pipeline.restRefs sig spec0, r.2.mem ((c.tc : Thread nD τ).loc b) = Cert.SharedFrame.finalAt (Wx m) [hostOps1] c b) :=
  Cert.SharedFrame.θ_run_around_shared cfgs (dats m) (0 : Fin 1) defs₀ Variants.none
    cellOf_inj winFacts₀0 block_pos0 arr_whole0 stage_whole0 m ρ main
    (hbody := fun c => (body_obligation m c).loose) (howed := fun _ _ => rfl)
    (V₀ := V0 m) (W := Wx m) (opss := [hostOps1]) (hsub := sfx_sub) (hfresh := sfx_fresh) (hkeep := sfx_keeps)
    (hmain := hmain m Variants.none) (hWrest := hWrest m) (hdeal := hdeal m) (hjoin := hjoin m) (hdeal' := hdeal' m)
    (hin := hin m) (hout := hout m)

end Cert.Kernel.Hand

end
-- ==== Proof.K.Frame.lean ====
/-
  The frame: no host operation, before or after the region, writes an argument of @main, and no window of the
  region is on one; so each argument's buffer ends the run holding what it held at launch.
-/
import proofs.«109620_j24661702214232_1_alg».proof.Proof.K.Run

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every host operation writes only its own result buffer, which is no argument. -/
local macro "no_write" : tactic => `(tactic| (
  refine List.forall_iff_forall_mem.mp ?_
  simp only [preOps, hostOps0, hostOps0_1, hostOps0_2, hostOps0_3, hostOps0_4, hostOps1, List.flatten_cons, List.flatten_nil, List.append_nil,
    List.cons_append, List.nil_append, List.Forall, StableHlo.nullary_writes, StableHlo.unary_writes, StableHlo.binary_writes,
    StableHlo.ternary_writes, StableHlo.reshape_writes, Finset.mem_singleton]
  repeat' apply And.intro
  all_goals exact StableHlo.devRef_ne_of_ne (by decide)))

theorem V_arg0 (c : Dev nD) : V0 m c (Proc.devRef .tc main_arg0) = m ((c : Thread nD τ).loc main_arg0) :=
  StableHlo.after_of_forall_not_mem (b := Proc.devRef .tc main_arg0) _ _ (by no_write)
theorem final_arg0 (c : Dev nD) : Cert.SharedFrame.finalAt (Wx m) [hostOps1] c main_arg0 = m ((c : Thread nD τ).loc main_arg0) := by
  unfold Cert.SharedFrame.finalAt
  rw [StableHlo.after_of_forall_not_mem (b := Proc.devRef .tc main_arg0) _ _ (by no_write), Wx_ne m c main_arg0 (by decide)]
  exact V_arg0 m c
theorem V_arg1 (c : Dev nD) : V0 m c (Proc.devRef .tc main_arg1) = m ((c : Thread nD τ).loc main_arg1) :=
  StableHlo.after_of_forall_not_mem (b := Proc.devRef .tc main_arg1) _ _ (by no_write)
theorem final_arg1 (c : Dev nD) : Cert.SharedFrame.finalAt (Wx m) [hostOps1] c main_arg1 = m ((c : Thread nD τ).loc main_arg1) := by
  unfold Cert.SharedFrame.finalAt
  rw [StableHlo.after_of_forall_not_mem (b := Proc.devRef .tc main_arg1) _ _ (by no_write), Wx_ne m c main_arg1 (by decide)]
  exact V_arg1 m c
theorem V_arg2 (c : Dev nD) : V0 m c (Proc.devRef .tc main_arg2) = m ((c : Thread nD τ).loc main_arg2) :=
  StableHlo.after_of_forall_not_mem (b := Proc.devRef .tc main_arg2) _ _ (by no_write)
theorem final_arg2 (c : Dev nD) : Cert.SharedFrame.finalAt (Wx m) [hostOps1] c main_arg2 = m ((c : Thread nD τ).loc main_arg2) := by
  unfold Cert.SharedFrame.finalAt
  rw [StableHlo.after_of_forall_not_mem (b := Proc.devRef .tc main_arg2) _ _ (by no_write), Wx_ne m c main_arg2 (by decide)]
  exact V_arg2 m c
theorem V_arg3 (c : Dev nD) : V0 m c (Proc.devRef .tc main_arg3) = m ((c : Thread nD τ).loc main_arg3) :=
  StableHlo.after_of_forall_not_mem (b := Proc.devRef .tc main_arg3) _ _ (by no_write)
theorem final_arg3 (c : Dev nD) : Cert.SharedFrame.finalAt (Wx m) [hostOps1] c main_arg3 = m ((c : Thread nD τ).loc main_arg3) := by
  unfold Cert.SharedFrame.finalAt
  rw [StableHlo.after_of_forall_not_mem (b := Proc.devRef .tc main_arg3) _ _ (by no_write), Wx_ne m c main_arg3 (by decide)]
  exact V_arg3 m c
theorem V_arg4 (c : Dev nD) : V0 m c (Proc.devRef .tc main_arg4) = m ((c : Thread nD τ).loc main_arg4) :=
  StableHlo.after_of_forall_not_mem (b := Proc.devRef .tc main_arg4) _ _ (by no_write)
theorem final_arg4 (c : Dev nD) : Cert.SharedFrame.finalAt (Wx m) [hostOps1] c main_arg4 = m ((c : Thread nD τ).loc main_arg4) := by
  unfold Cert.SharedFrame.finalAt
  rw [StableHlo.after_of_forall_not_mem (b := Proc.devRef .tc main_arg4) _ _ (by no_write), Wx_ne m c main_arg4 (by decide)]
  exact V_arg4 m c
theorem V_arg5 (c : Dev nD) : V0 m c (Proc.devRef .tc main_arg5) = m ((c : Thread nD τ).loc main_arg5) :=
  StableHlo.after_of_forall_not_mem (b := Proc.devRef .tc main_arg5) _ _ (by no_write)
theorem final_arg5 (c : Dev nD) : Cert.SharedFrame.finalAt (Wx m) [hostOps1] c main_arg5 = m ((c : Thread nD τ).loc main_arg5) := by
  unfold Cert.SharedFrame.finalAt
  rw [StableHlo.after_of_forall_not_mem (b := Proc.devRef .tc main_arg5) _ _ (by no_write), Wx_ne m c main_arg5 (by decide)]
  exact V_arg5 m c
theorem V_arg6 (c : Dev nD) : V0 m c (Proc.devRef .tc main_arg6) = m ((c : Thread nD τ).loc main_arg6) :=
  StableHlo.after_of_forall_not_mem (b := Proc.devRef .tc main_arg6) _ _ (by no_write)
theorem final_arg6 (c : Dev nD) : Cert.SharedFrame.finalAt (Wx m) [hostOps1] c main_arg6 = m ((c : Thread nD τ).loc main_arg6) := by
  unfold Cert.SharedFrame.finalAt
  rw [StableHlo.after_of_forall_not_mem (b := Proc.devRef .tc main_arg6) _ _ (by no_write), Wx_ne m c main_arg6 (by decide)]
  exact V_arg6 m c

/-- THE FRAME: every weakly fair execution terminates without a fault and the arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 main_arg0 (Pipeline.mem_restRefs_of main_arg0 (by decide) (by decide))).trans (final_arg0 m c),
      ((h c).2 main_arg1 (Pipeline.mem_restRefs_of main_arg1 (by decide) (by decide))).trans (final_arg1 m c),
      ((h c).2 main_arg2 (Pipeline.mem_restRefs_of main_arg2 (by decide) (by decide))).trans (final_arg2 m c),
      ((h c).2 main_arg3 (Pipeline.mem_restRefs_of main_arg3 (by decide) (by decide))).trans (final_arg3 m c),
      ((h c).2 main_arg4 (Pipeline.mem_restRefs_of main_arg4 (by decide) (by decide))).trans (final_arg4 m c),
      ((h c).2 main_arg5 (Pipeline.mem_restRefs_of main_arg5 (by decide) (by decide))).trans (final_arg5 m c),
      ((h c).2 main_arg6 (Pipeline.mem_restRefs_of main_arg6 (by decide) (by decide))).trans (final_arg6 m c)⟩) (run_main m ρ)

end Cert.Kernel.Hand

end
-- ==== Proof.KI.Setup.lean ====
/-
  The program around its one kernel region: the host operations before the region compute the sample matrix
  (one row per sample) and the vector of squared row norms; the region sums exp(-d/2) over all pairs of samples
  tile by tile; the host operations after it scale that sum and add the two remaining terms of the statistic.

  This module names the contents of every buffer when the region is entered (the earlier operations applied to the
  launch memory), splits @main into "earlier operations, region, later operations", records that the later
  operations allocate nothing and write none of the arrays the region's windows read or write, and decides the
  two branch conditions of the kernel body over the grid: the accumulator is reset exactly at the first grid point
  and the result is stored exactly at the last one.
-/
import proofs.«109620_j24661702214232_1_alg».proof.Proof.Gen.KernelIdeal.Launch
import proofs.«109620_j24661702214232_1_alg».proof.Proof.Gen.KernelIdeal.Skeleton
import proofs.«109620_j24661702214232_1_alg».proof.Proof.Gen.KernelIdeal.Points
import Idealize.ShloMosaic.Lib.Pipeline.FrameBody
import Idealize.ShloMosaic.Lib.Pipeline.FrameSuffix
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The stretches of host operations before the region, in order. -/
abbrev preOps : List (List (HloOp τ sig (Elt F))) := [hostOps0, hostOps0_1, hostOps0_2, hostOps0_3, hostOps0_4]

/-- Core `c`'s buffers when the region is entered: the earlier operations applied to the launch memory. -/
abbrev V0 (c : Dev nD) : Valuation τ sig (Elt F) := StableHlo.after (List.flatten (preOps (F := F))) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the earlier operations, the region, the later operations: it reduces to the region continued by the
    later operations, entered with the buffers at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain (([hostOps1] : List (List (HloOp τ sig (Elt F)))).map StableHlo.seq)) :=
  Pipeline.hmain_around cfgs 0 defs₀ 𝒱₀ m main preOps [hostOps1]
    (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩)
    (fun c => (main_chain c).trans rfl)

/-- The later operations touch TensorCore buffers only, -/
theorem sfx_sub : ∀ ops ∈ ([hostOps1] : List (List (HloOp τ sig (Elt F)))), ∀ op ∈ ops, op.bufs ⊆ StableHlo.tcRefs τ sig := by
  intro ops hops op hop
  simp only [List.mem_cons, List.mem_nil_iff, or_false] at hops
  rcases hops with rfl
  exact (List.forall_iff_forall_mem.mp hostOps1_sub) op hop
/-- allocate nothing, -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- and write no array of the region's windows (each writes only its own result buffer). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl | rfl | rfl | rfl | rfl | rfl | rfl | rfl | rfl | rfl | rfl | rfl | rfl
  all_goals intro w; fin_cases w <;> simp only [StableHlo.nullary_writes, StableHlo.unary_writes, StableHlo.binary_writes, StableHlo.reshape_writes, Finset.mem_singleton] <;> exact StableHlo.devRef_ne_of_ne (by decide)

/-! ## The body's two branch conditions over the grid -/

/-- The condition of the body's first `scf.if` (the accumulator's reset), from the grid coordinates. -/
abbrev condFirst (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first grid point only. -/
theorem hcondFirst : ∀ t : Fin cfg0.N, condFirst (grid0.coords t) ↔ t.val = 0 :=
  (by decide +kernel : ∀ t : Fin grid0.N, condFirst (grid0.coords t) ↔ t.val = 0)

/-- The condition of the body's second `scf.if` (the result's store). -/
abbrev condLast (i : grid0.Coords) : Prop := k0_cond2 i = 1#1
/-- It holds at the last grid point only. -/
theorem hcondLast : ∀ t : Fin cfg0.N, condLast (grid0.coords t) ↔ t.val = 127 :=
  (by decide +kernel : ∀ t : Fin grid0.N, condLast (grid0.coords t) ↔ t.val = 127)

/-! ## Where the windows are idle -/

theorem liveAt_0 : ∀ t : Fin cfg0.N, cfg0.idle 0 (grid0.coords t) = false := by decide +kernel
theorem liveAt_1 : ∀ t : Fin cfg0.N, cfg0.idle 1 (grid0.coords t) = false := by decide +kernel
theorem liveAt_2 : ∀ t : Fin cfg0.N, cfg0.idle 2 (grid0.coords t) = false := by decide +kernel
theorem liveAt_3 : ∀ t : Fin cfg0.N, cfg0.idle 3 (grid0.coords t) = false := by decide +kernel
/-- Away from the last point the output window is idle (the body stores nothing into it) and is not written back. -/
theorem idleAt_4 : ∀ t : Fin cfg0.N, ¬condLast (grid0.coords t) → cfg0.idle 4 (grid0.coords t) = true := by decide +kernel
theorem noFlush_4 : ∀ t : Fin cfg0.N, ¬condLast (grid0.coords t) → (cfg0.win 4).flush t = false := by decide +kernel
/-- At the last point it is live and written back. -/
theorem liveAt_4 : ∀ t : Fin cfg0.N, condLast (grid0.coords t) → cfg0.idle 4 (grid0.coords t) = false := by decide +kernel
theorem flushAt_4 : ∀ t : Fin cfg0.N, condLast (grid0.coords t) → (cfg0.win 4).flush t = true := by decide +kernel

/-! ## The staging memrefs the body is called with, and the scratch -/

abbrev ms_0 (t : Fin cfg0.N) : Memref sig .tc .vmem S1024x16 .f32 := win0_0.stage (cfg0.slots t 0)
abbrev hs_0 (t : Fin cfg0.N) : (ms_0 t).IsWhole := Facts₀.hstage0_0 ((cfg0.slots t 0).cast Facts₀.nbuf0_0)
abbrev ms_1 (t : Fin cfg0.N) : Memref sig .tc .vmem S2048x16 .f32 := win0_1.stage (cfg0.slots t 1)
abbrev hs_1 (t : Fin cfg0.N) : (ms_1 t).IsWhole := Facts₀.hstage0_1 ((cfg0.slots t 1).cast Facts₀.nbuf0_1)
abbrev ms_2 (t : Fin cfg0.N) : Memref sig .tc .vmem S1024x1 .f32 := win0_2.stage (cfg0.slots t 2)
abbrev hs_2 (t : Fin cfg0.N) : (ms_2 t).IsWhole := Facts₀.hstage0_2 ((cfg0.slots t 2).cast Facts₀.nbuf0_2)
abbrev ms_3 (t : Fin cfg0.N) : Memref sig .tc .vmem S1x2048 .f32 := win0_3.stage (cfg0.slots t 3)
abbrev hs_3 (t : Fin cfg0.N) : (ms_3 t).IsWhole := Facts₀.hstage0_3 ((cfg0.slots t 3).cast Facts₀.nbuf0_3)
abbrev ms_4 (t : Fin cfg0.N) : Memref sig .tc .vmem S1x1 .f32 := win0_4.stage (cfg0.slots t 4)
abbrev hs_4 (t : Fin cfg0.N) : (ms_4 t).IsWhole := Facts₀.hstage0_4 ((cfg0.slots t 4).cast Facts₀.nbuf0_4)
/-- The accumulator: a scoped buffer of the kernel's own, carried from point to point. -/
abbrev scM : Memref sig .tc .vmem S1x1 .f32 := Memref.whole cc0_scratch0

/-- What the region's invariant holds besides the windows: the accumulator at some contents and the generator
    register at some state. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

end Cert.KernelIdeal.Hand

end
-- ==== Proof.KI.Body.lean ====
/-
  The kernel body at one grid point, as three runs. At every point the body reads the four input blocks and the
  accumulator and stores "accumulator + (sum over the tile of exp(-d/2))" back into the accumulator; at the first
  point it first resets the accumulator to zero, and at the last point it then copies the accumulator into the
  output block. Each run is stated over whole staging buffers holding given blocks and ends with the accumulator
  (and, at the last point, the output block) holding the body's payload of those blocks.
-/
import proofs.«109620_j24661702214232_1_alg».proof.Proof.KI.Setup
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Whole-block loads and stores -/

theorem zero2 : (![0, 0] : Fin 2 → ℕ) = fun _ => 0 := funext fun a => by fin_cases a <;> rfl

/-- A load of the whole block of a whole buffer holding `x` reads `x`. -/
theorem load_whole {S : Shape} {e : EltTy} (M : Memref sig .tc .vmem S e) (h : M.IsWhole) (x : S.Idx → Elt F e)
    {off : Fin S.rank → ℕ} (hz : off = fun _ => 0) (inb : ∀ a, off a + S.size a ≤ S.size a) :
    View.readAt (Elt F) M.view (Rect.unit off S.size inb).toLoadRect (h.unread x) = x := by
  simp only [View.readAt_eq_ld, h.read_unread, View.ld_unit_zero hz]

/-- A store of the whole block, made last, leaves its payload whatever was stored before. -/
theorem store_whole {S : Shape} {e : EltTy} (v : View sig .tc .vmem S e) (f : v.ty.Contents (Elt F))
    {off : Fin S.rank → ℕ} (hz : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, by
    subst hz; show y ∈ (Rect.whole S).set; rw [Rect.set_whole]; exact Finset.mem_univ y⟩), View.canon_cons_unit_zero hz]

/-! ## The three runs -/

set_option maxHeartbeats 1000000 in
/-- A middle point: neither branch is taken; the accumulator goes from `xs` to the payload over `xs`. -/
theorem run_mid (c : Dev nD) (i : grid0.Coords)
    (arg2 : Memref sig .tc .vmem S1024x16 .f32) (harg2 : arg2.IsWhole) (arg3 : Memref sig .tc .vmem S2048x16 .f32) (harg3 : arg3.IsWhole)
    (arg4 : Memref sig .tc .vmem S1024x1 .f32) (harg4 : arg4.IsWhole) (arg5 : Memref sig .tc .vmem S1x2048 .f32) (harg5 : arg5.IsWhole)
    (arg6 : Memref sig .tc .vmem S1x1 .f32) (harg6 : arg6.IsWhole) (arg7 : Memref sig .tc .vmem S1x1 .f32) (harg7 : arg7.IsWhole)
    (hc0 : ¬condFirst i) (hc1 : ¬condLast i) (x0 : Vec F S1024x16 .f32) (x1 : Vec F S2048x16 .f32) (x2 : Vec F S1024x1 .f32) (x3 : Vec F S1x2048 .f32) (xs : Vec F S1x1 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg7 fullShare xs
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg7 fullShare (k0_pay2 x0 x1 x2 x3 xs)) -∗ K ⟨⟩))
      ⊢ wp frame (wpE (defs₀ (F := F)) Variants.none c none) E (cc0__bhep_kernel i arg2 harg2 arg3 harg3 arg4 harg4 arg5 harg5 arg6 harg6 arg7 harg7) K := by
  simp only [cc0__bhep_kernel_eq_skeleton, k0_part1_eq_skeleton]; unfold cc0__bhep_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg2.eq_unread hf0; obtain rfl := harg3.eq_unread hf1; obtain rfl := harg4.eq_unread hf2
  obtain rfl := harg5.eq_unread hf3; obtain rfl := harg7.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  swap; · iexact HS
  ipureintro
  rw [store_whole _ _ zero2, load_whole _ harg2 _ zero2, load_whole _ harg3 _ zero2, load_whole _ harg4 _ zero2,
    load_whole _ harg5 _ zero2, load_whole _ harg7 _ zero2]

set_option maxHeartbeats 1000000 in
/-- The first point: the accumulator, whatever it held, is reset and then holds the payload over the reset value. -/
theorem run_first (c : Dev nD) (i : grid0.Coords)
    (arg2 : Memref sig .tc .vmem S1024x16 .f32) (harg2 : arg2.IsWhole) (arg3 : Memref sig .tc .vmem S2048x16 .f32) (harg3 : arg3.IsWhole)
    (arg4 : Memref sig .tc .vmem S1024x1 .f32) (harg4 : arg4.IsWhole) (arg5 : Memref sig .tc .vmem S1x2048 .f32) (harg5 : arg5.IsWhole)
    (arg6 : Memref sig .tc .vmem S1x1 .f32) (harg6 : arg6.IsWhole) (arg7 : Memref sig .tc .vmem S1x1 .f32) (harg7 : arg7.IsWhole)
    (hc0 : condFirst i) (hc1 : ¬condLast i) (x0 : Vec F S1024x16 .f32) (x1 : Vec F S2048x16 .f32) (x2 : Vec F S1024x1 .f32) (x3 : Vec F S1x2048 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg7 fullShare d)
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg7 fullShare (k0_pay2 x0 x1 x2 x3 (k0_pay1 (F := F)))) -∗ K ⟨⟩))
      ⊢ wp frame (wpE (defs₀ (F := F)) Variants.none c none) E (cc0__bhep_kernel i arg2 harg2 arg3 harg3 arg4 harg4 arg5 harg5 arg6 harg6 arg7 harg7) K := by
  simp only [cc0__bhep_kernel_eq_skeleton, k0_part1_eq_skeleton]; unfold cc0__bhep_kernel_skel
  unfold owns
  iintro ⟨⟨%f0, %hf0, H0⟩, ⟨%f1, %hf1, H1⟩, ⟨%f2, %hf2, H2⟩, ⟨%f3, %hf3, H3⟩, ⟨%ds, %fs, -, HS⟩, Hk⟩
  obtain rfl := harg2.eq_unread hf0; obtain rfl := harg3.eq_unread hf1; obtain rfl := harg4.eq_unread hf2
  obtain rfl := harg5.eq_unread hf3
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  swap; · iexact HS
  ipureintro
  sl_unfold_run_names
  rw [store_whole _ _ zero2, View.readCov_unit_zero _ zero2, load_whole _ harg2 _ zero2, load_whole _ harg3 _ zero2, load_whole _ harg4 _ zero2, load_whole _ harg5 _ zero2]

set_option maxHeartbeats 1000000 in
/-- The last point: the accumulator takes the payload over `xs`, and the output block a copy of it. -/
theorem run_last (c : Dev nD) (i : grid0.Coords)
    (arg2 : Memref sig .tc .vmem S1024x16 .f32) (harg2 : arg2.IsWhole) (arg3 : Memref sig .tc .vmem S2048x16 .f32) (harg3 : arg3.IsWhole)
    (arg4 : Memref sig .tc .vmem S1024x1 .f32) (harg4 : arg4.IsWhole) (arg5 : Memref sig .tc .vmem S1x2048 .f32) (harg5 : arg5.IsWhole)
    (arg6 : Memref sig .tc .vmem S1x1 .f32) (harg6 : arg6.IsWhole) (arg7 : Memref sig .tc .vmem S1x1 .f32) (harg7 : arg7.IsWhole)
    (hc0 : ¬condFirst i) (hc1 : condLast i) (x0 : Vec F S1024x16 .f32) (x1 : Vec F S2048x16 .f32) (x2 : Vec F S1024x1 .f32) (x3 : Vec F S1x2048 .f32) (xs : Vec F S1x1 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg7 fullShare xs ∗ (∃ d, owns (c : Thread nD τ) arg6 fullShare d)
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg7 fullShare (k0_pay2 x0 x1 x2 x3 xs)
            ∗ owns (c : Thread nD τ) arg6 fullShare (k0_pay2 x0 x1 x2 x3 xs)) -∗ K ⟨⟩))
      ⊢ wp frame (wpE (defs₀ (F := F)) Variants.none c none) E (cc0__bhep_kernel i arg2 harg2 arg3 harg3 arg4 harg4 arg5 harg5 arg6 harg6 arg7 harg7) K := by
  simp only [cc0__bhep_kernel_eq_skeleton, k0_part1_eq_skeleton]; unfold cc0__bhep_kernel_skel
  unfold owns
  iintro ⟨⟨%f0, %hf0, H0⟩, ⟨%f1, %hf1, H1⟩, ⟨%f2, %hf2, H2⟩, ⟨%f3, %hf3, H3⟩, ⟨%fs, %hfs, HS⟩, ⟨%d6, %f6, -, H6⟩, Hk⟩
  obtain rfl := harg2.eq_unread hf0; obtain rfl := harg3.eq_unread hf1; obtain rfl := harg4.eq_unread hf2
  obtain rfl := harg5.eq_unread hf3; obtain rfl := harg7.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [HS]
  · iexists _; isplitr
    swap; · iexact HS
    ipureintro
    sl_unfold_run_names
    rw [store_whole _ _ zero2, load_whole _ harg2 _ zero2, load_whole _ harg3 _ zero2, load_whole _ harg4 _ zero2, load_whole _ harg5 _ zero2, load_whole _ harg7 _ zero2]
  iexists _; isplitr
  swap; · iexact H6
  ipureintro
  sl_unfold_run_names
  rw [store_whole _ _ zero2, View.readCov_unit_zero _ zero2, load_whole _ harg2 _ zero2, load_whole _ harg3 _ zero2, load_whole _ harg4 _ zero2, load_whole _ harg5 _ zero2, load_whole _ harg7 _ zero2]

end Cert.KernelIdeal.Hand

end
-- ==== Proof.KI.Data.lean ====
/-
  The proof data of the region. The accumulator after grid point n is defined by recursion on n: at the first
  point the body's payload over the reset value, afterwards the payload over what the point before left. Every input
  window's staging buffer holds its block of the array at every point; the output block is stored at the last point
  only, where it receives the accumulator. Between points the region's invariant holds the accumulator at exactly
  that recursion's value. The two windows that read the sample matrix hold it at the two halves of the full share.
-/
import proofs.«109620_j24661702214232_1_alg».proof.Proof.KI.Body

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The accumulator, point by point -/

/-- What the accumulator holds after the body at position `n` of the grid. -/
def accAt (c : Dev nD) : (n : ℕ) → n < cfg0.N → Vec F S1x1 .f32
  | 0, hn => k0_pay2 (iblk m c 0 ⟨0, hn⟩) (iblk m c 1 ⟨0, hn⟩) (iblk m c 2 ⟨0, hn⟩) (iblk m c 3 ⟨0, hn⟩) (k0_pay1 (F := F))
  | n + 1, hn => k0_pay2 (iblk m c 0 ⟨n + 1, hn⟩) (iblk m c 1 ⟨n + 1, hn⟩) (iblk m c 2 ⟨n + 1, hn⟩) (iblk m c 3 ⟨n + 1, hn⟩)
      (accAt c n (Nat.lt_of_succ_lt hn))

theorem accAt_zero (c : Dev nD) (t : Fin cfg0.N) (h : t.val = 0) :
    accAt m c t.val t.isLt = k0_pay2 (iblk m c 0 t) (iblk m c 1 t) (iblk m c 2 t) (iblk m c 3 t) (k0_pay1 (F := F)) := by
  obtain ⟨n, hn⟩ := t
  cases n with
  | zero => rfl
  | succ n => exact absurd h (Nat.succ_ne_zero n)

theorem accAt_pos (c : Dev nD) (t : Fin cfg0.N) (h : t.val ≠ 0) :
    accAt m c t.val t.isLt = k0_pay2 (iblk m c 0 t) (iblk m c 1 t) (iblk m c 2 t) (iblk m c 3 t)
      (accAt m c (t.val - 1) (Nat.lt_of_le_of_lt (Nat.sub_le _ _) t.isLt)) := by
  obtain ⟨n, hn⟩ := t
  cases n with
  | zero => exact absurd rfl h
  | succ n => rfl

/-- The region's invariant before position `n`: before the first point the accumulator at anything; afterwards
    at what the point before left; the generator register at some state throughout. -/
def PhiS (c : Dev nD) : (n : ℕ) → n ≤ cfg0.N → sProp 𝕄
  | 0, _ => Pipeline.ΦA spec0 c
  | n + 1, hn => iprop(iprop(owns (c : Thread nD τ) scM fullShare (accAt m c n hn)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM fullShare (accAt m c n hn)) ∗ (∃ r, prngReg c r)) := rfl

theorem PhiS_pos (c : Dev nD) (n : ℕ) (h : n ≤ cfg0.N) (hz : n ≠ 0) :
    PhiS m c n h = iprop(iprop(owns (c : Thread nD τ) scM fullShare (accAt m c (n - 1) (by omega))) ∗ (∃ r, prngReg c r)) := by
  cases n with
  | zero => exact absurd rfl hz
  | succ n => rfl

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => accAt m c t.val t.isLt
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = accAt m c t.val t.isLt := by dsimp only [dats]

/-- Each input's current staging buffer holds its block at every point, fetched there or not. -/
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)

/-! ## The body obligation at a point -/

def bodyPre (c : Dev nD) (t : Fin cfg0.N) : sProp 𝕄 :=
  iprop((dats m 0 c).Φ t.castSucc ∗ (dats m 0 c).owesAt () t.castSucc
    ∗ (∃ d, owns (c : Thread nD τ) (ms_0 t) fullShare ((dats m 0 c).before 0 t d))
    ∗ (∃ d, owns (c : Thread nD τ) (ms_1 t) fullShare ((dats m 0 c).before 1 t d))
    ∗ (∃ d, owns (c : Thread nD τ) (ms_2 t) fullShare ((dats m 0 c).before 2 t d))
    ∗ (∃ d, owns (c : Thread nD τ) (ms_3 t) fullShare ((dats m 0 c).before 3 t d))
    ∗ (∃ d, owns (c : Thread nD τ) (ms_4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 4800000 in
/-- The body at any point: by the position in the grid, one of the three runs. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).owesAt () t.succ = (dats m 0 c).owesAt () t.castSucc from rfl]
  rw [show (dats m 0 c).Φ t.succ = PhiS m c (t.val + 1) t.isLt from rfl, PhiS_succ]
  have hN : t.val < 128 := lt_of_lt_of_eq t.isLt (show cfg0.N = 128 from N_0)
  rw [show (dats m 0 c).leavesExact 0 t = owns (c : Thread nD τ) (ms_0 t) fullShare ((dats m 0 c).after 0 t) from by
    unfold Dat.leavesExact; rw [liveAt_0 t], after_0]
  rw [show (dats m 0 c).leavesExact 1 t = owns (c : Thread nD τ) (ms_1 t) fullShare ((dats m 0 c).after 1 t) from by
    unfold Dat.leavesExact; rw [liveAt_1 t], after_1]
  rw [show (dats m 0 c).leavesExact 2 t = owns (c : Thread nD τ) (ms_2 t) fullShare ((dats m 0 c).after 2 t) from by
    unfold Dat.leavesExact; rw [liveAt_2 t], after_2]
  rw [show (dats m 0 c).leavesExact 3 t = owns (c : Thread nD τ) (ms_3 t) fullShare ((dats m 0 c).after 3 t) from by
    unfold Dat.leavesExact; rw [liveAt_3 t], after_3]
  by_cases hz : t.val = 0
  · -- the first point
    have h0 : condFirst (grid0.coords t) := (hcondFirst t).mpr hz
    have h1 : ¬condLast (grid0.coords t) := fun h => by have := (hcondLast t).mp h; omega
    rw [Dat.leavesExact_idle (dats m 0 c) 4 t (idleAt_4 t h1) (noFlush_4 t h1)]
    rw [accAt_zero m c t hz]
    rw [PhiS_castSucc m c t, PhiS_zero m c _ _ hz, PhiA_eq]
    iintro ⟨⟨HS, Hg⟩, Ho, ⟨%d0, H0⟩, ⟨%d1, H1⟩, ⟨%d2, H2⟩, ⟨%d3, H3⟩, H4⟩
    iapply (run_first c (grid0.coords t) _ _ _ _ _ _ _ _ _ _ _ _ h0 h1 (iblk m c 0 t) (iblk m c 1 t) (iblk m c 2 t) (iblk m c 3 t) Set.univ _)
    isplitl [H0]; · iexact H0
    isplitl [H1]; · iexact H1
    isplitl [H2]; · iexact H2
    isplitl [H3]; · iexact H3
    isplitl [HS]; · iexact HS
    iintro ⟨H0, H1, H2, H3, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    iexact H4
  · by_cases hl : t.val = 127
    · -- the last point
      have h0 : ¬condFirst (grid0.coords t) := fun h => hz ((hcondFirst t).mp h)
      have h1 : condLast (grid0.coords t) := (hcondLast t).mpr hl
      rw [show (dats m 0 c).leavesExact 4 t = owns (c : Thread nD τ) (ms_4 t) fullShare ((dats m 0 c).after 4 t) from by
        unfold Dat.leavesExact; rw [liveAt_4 t h1], after_4]
      rw [accAt_pos m c t hz]
      rw [PhiS_castSucc m c t, PhiS_pos m c _ _ hz]
      iintro ⟨⟨HS, Hg⟩, Ho, ⟨%d0, H0⟩, ⟨%d1, H1⟩, ⟨%d2, H2⟩, ⟨%d3, H3⟩, ⟨%d4, H4⟩⟩
      iapply (run_last c (grid0.coords t) _ _ _ _ _ _ _ _ _ _ _ _ h0 h1 (iblk m c 0 t) (iblk m c 1 t) (iblk m c 2 t) (iblk m c 3 t) _ Set.univ _)
      isplitl [H0]; · iexact H0
      isplitl [H1]; · iexact H1
      isplitl [H2]; · iexact H2
      isplitl [H3]; · iexact H3
      isplitl [HS]; · iexact HS
      isplitl [H4]; · iexists _; iexact H4
      iintro ⟨H0, H1, H2, H3, HS, H4⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      iexact H4
    · -- a middle point
      have h0 : ¬condFirst (grid0.coords t) := fun h => hz ((hcondFirst t).mp h)
      have h1 : ¬condLast (grid0.coords t) := fun h => hl ((hcondLast t).mp h)
      rw [Dat.leavesExact_idle (dats m 0 c) 4 t (idleAt_4 t h1) (noFlush_4 t h1)]
      rw [accAt_pos m c t hz]
      rw [PhiS_castSucc m c t, PhiS_pos m c _ _ hz]
      iintro ⟨⟨HS, Hg⟩, Ho, ⟨%d0, H0⟩, ⟨%d1, H1⟩, ⟨%d2, H2⟩, ⟨%d3, H3⟩, H4⟩
      iapply (run_mid c (grid0.coords t) _ _ _ _ _ _ _ _ _ _ _ _ h0 h1 (iblk m c 0 t) (iblk m c 1 t) (iblk m c 2 t) (iblk m c 3 t) _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the same back, the accumulator's contents forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 128 := N_0; omega), PhiA_eq]
  iintro ⟨HS, Hg⟩
  isplitl [HS]
  · iexists _; iexact HS
  iexact Hg

end Cert.KernelIdeal.Hand

end
-- ==== Proof.KI.Run.lean ====
/-
  The run of the whole program. The sample matrix is read by two windows of the region, so its buffer is held once
  at the full share around the region and dealt in two halves to those windows inside it; the other three arrays
  are held whole. At the region's exit only the one-element result array has changed. From these three dealings and
  the per-point obligation, every weakly fair execution terminates with each window's array at what the write-backs
  leave and every other buffer at what the later host operations compute from the exit contents.
-/
import proofs.«109620_j24661702214232_1_alg».proof.Proof.KI.Data
import proofs.«109620_j24661702214232_1_alg».proof.Proof.LibSharedFrame

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

open Classical in
/-- Core `c`'s buffers at the region's exit: as at its entry, but the result array at what the last grid point wrote back. -/
def Wx (c : Dev nD) : Valuation τ sig (Elt F) :=
  Function.update (V0 m c) (Proc.devRef .tc main_v31) ((dats m 0 c).arrAt 4 cfg0.N)

theorem Wx_v31 (c : Dev nD) : Wx m c (Proc.devRef .tc main_v31) = (dats m 0 c).arrAt 4 cfg0.N := by
  unfold Wx; exact Function.update_self _ _ _

theorem Wx_ne (c : Dev nD) (b : Ref sig .tc) (h : b ≠ main_v31) : Wx m c (Proc.devRef .tc b) = V0 m c (Proc.devRef .tc b) := by
  unfold Wx; exact Function.update_of_ne (StableHlo.devRef_ne_of_ne h) _ _

/-- The four buffers behind the five windows. -/
theorem arrImage : Finset.univ.image (Pipeline.arrRef spec0) = ([main_v26, main_v29, main_v30, main_v31] : List (Ref sig .tc)).toFinset := by decide

/-- A conjunction over those four buffers, one by one. -/
theorem bigSep_arr {M : Type} [URA M] (Φ : Ref sig .tc → sProp M) :
    bigSep (Finset.univ.image (Pipeline.arrRef spec0)) Φ = iprop(Φ main_v26 ∗ Φ main_v29 ∗ Φ main_v30 ∗ Φ main_v31) :=
  bigSep_eq_bigSepL_of_eq [main_v26, main_v29, main_v30, main_v31] arrImage (by decide) Φ

/-- Off the windows' arrays nothing changes across the region. -/
theorem hWrest (c : Dev nD) : ∀ b ∈ Pipeline.restRefs sig spec0, Wx m c (Proc.devRef .tc b) = V0 m c (Proc.devRef .tc b) := by
  intro b hb
  refine Wx_ne m c b fun h => ?_
  subst h
  exact (Finset.mem_sdiff.mp hb).2 (Finset.mem_image.mpr ⟨4, Finset.mem_univ _, rfl⟩)

/-- An input window's array is never written: it holds its entry contents throughout. -/
theorem arrAt_0 (c : Dev nD) (n : ℕ) : (dats m 0 c).arrAt 0 n = V m c main_v26 := ((dats m 0 c).arrAt_in 0 rfl n).trans (A_eq m c 0)
theorem arrAt_1 (c : Dev nD) (n : ℕ) : (dats m 0 c).arrAt 1 n = V m c main_v26 := ((dats m 0 c).arrAt_in 1 rfl n).trans (A_eq m c 1)
theorem arrAt_2 (c : Dev nD) (n : ℕ) : (dats m 0 c).arrAt 2 n = V m c main_v29 := ((dats m 0 c).arrAt_in 2 rfl n).trans (A_eq m c 2)
theorem arrAt_3 (c : Dev nD) (n : ℕ) : (dats m 0 c).arrAt 3 n = V m c main_v30 := ((dats m 0 c).arrAt_in 3 rfl n).trans (A_eq m c 3)

/-! ## The windows' arrays as whole buffers -/

theorem share_0 (c : Dev nD) : (dats m 0 c).share 0 = fullShare.left := by unfold Dat.share; simp only [dats]; rfl
theorem share_1 (c : Dev nD) : (dats m 0 c).share 1 = fullShare.right := by unfold Dat.share; simp only [dats]; rfl
theorem share_2 (c : Dev nD) : (dats m 0 c).share 2 = fullShare := by unfold Dat.share; simp only [dats]; rfl
theorem share_3 (c : Dev nD) : (dats m 0 c).share 3 = fullShare := by unfold Dat.share; simp only [dats]; rfl
theorem share_4 (c : Dev nD) : (dats m 0 c).share 4 = fullShare := by unfold Dat.share; simp only [dats]; rfl

theorem pt_0 (c : Dev nD) (q : PosShare TreeShare) (f : Buf (Elt F) ((cfg0.win 0).arr.view.loc (c.tc : Thread nD τ))) :
    ((cfg0.win 0).arr.view.loc (c.tc : Thread nD τ) ↦[(cfg0.win 0).arr.view.set]{q} f : sProp 𝕄) = ((c.tc : Thread nD τ).loc main_v26 ↦{q} f) := by
  rw [(arr_whole0 0).set_eq_univ]
theorem pt_1 (c : Dev nD) (q : PosShare TreeShare) (f : Buf (Elt F) ((cfg0.win 1).arr.view.loc (c.tc : Thread nD τ))) :
    ((cfg0.win 1).arr.view.loc (c.tc : Thread nD τ) ↦[(cfg0.win 1).arr.view.set]{q} f : sProp 𝕄) = ((c.tc : Thread nD τ).loc main_v26 ↦{q} f) := by
  rw [(arr_whole0 1).set_eq_univ]
theorem pt_2 (c : Dev nD) (q : PosShare TreeShare) (f : Buf (Elt F) ((cfg0.win 2).arr.view.loc (c.tc : Thread nD τ))) :
    ((cfg0.win 2).arr.view.loc (c.tc : Thread nD τ) ↦[(cfg0.win 2).arr.view.set]{q} f : sProp 𝕄) = ((c.tc : Thread nD τ).loc main_v29 ↦{q} f) := by
  rw [(arr_whole0 2).set_eq_univ]
theorem pt_3 (c : Dev nD) (q : PosShare TreeShare) (f : Buf (Elt F) ((cfg0.win 3).arr.view.loc (c.tc : Thread nD τ))) :
    ((cfg0.win 3).arr.view.loc (c.tc : Thread nD τ) ↦[(cfg0.win 3).arr.view.set]{q} f : sProp 𝕄) = ((c.tc : Thread nD τ).loc main_v30 ↦{q} f) := by
  rw [(arr_whole0 3).set_eq_univ]
theorem pt_4 (c : Dev nD) (q : PosShare TreeShare) (f : Buf (Elt F) ((cfg0.win 4).arr.view.loc (c.tc : Thread nD τ))) :
    ((cfg0.win 4).arr.view.loc (c.tc : Thread nD τ) ↦[(cfg0.win 4).arr.view.set]{q} f : sProp 𝕄) = ((c.tc : Thread nD τ).loc main_v31 ↦{q} f) := by
  rw [(arr_whole0 4).set_eq_univ]

/-- The arrays as conjuncts over whole buffers, at any contents. -/
theorem arrays_eq' (c : Dev nD) (G : (w : Fin cfg0.W) → Buf (Elt F) ((cfg0.win w).arr.view.loc (c.tc : Thread nD τ))) :
    ((dats m 0 c).arrays G : sProp 𝕄) = iprop(((c.tc : Thread nD τ).loc main_v26 ↦{fullShare.left} G 0) ∗ ((c.tc : Thread nD τ).loc main_v26 ↦{fullShare.right} G 1)
      ∗ ((c.tc : Thread nD τ).loc main_v29 ↦{fullShare} G 2) ∗ ((c.tc : Thread nD τ).loc main_v30 ↦{fullShare} G 3) ∗ ((c.tc : Thread nD τ).loc main_v31 ↦{fullShare} G 4)) := by
  unfold Dat.arrays
  rw [bigSep_W0]
  exact congrArg₂ BI.sep ((congrArg (fun q => _ ↦[_]{q} _) (share_0 m c)).trans (pt_0 c _ _))
    (congrArg₂ BI.sep ((congrArg (fun q => _ ↦[_]{q} _) (share_1 m c)).trans (pt_1 c _ _))
      (congrArg₂ BI.sep ((congrArg (fun q => _ ↦[_]{q} _) (share_2 m c)).trans (pt_2 c _ _))
        (congrArg₂ BI.sep ((congrArg (fun q => _ ↦[_]{q} _) (share_3 m c)).trans (pt_3 c _ _))
          ((congrArg (fun q => _ ↦[_]{q} _) (share_4 m c)).trans (pt_4 c _ _)))))

theorem arrAt_zero (c : Dev nD) (w : Fin cfg0.W) : (dats m 0 c).arrAt w 0 = V m c (Pipeline.arrRef spec0 w) := by
  show (dats m 0 c).A w = _
  exact A_eq m c w

/-- At entry: the sample matrix's buffer is dealt in two halves to the two windows that read it. -/
theorem hdeal (c : Dev nD) : (Pipeline.arrBufs spec0 c (fun b => V0 m c (Proc.devRef .tc b)) : sProp 𝕄) ⊢ (dats m 0 c).arrays ((dats m 0 c).arrAt · 0) := by
  unfold Pipeline.arrBufs
  rw [bigSep_arr]
  beta_reduce
  rw [arrays_eq', arrAt_zero, arrAt_zero, arrAt_zero, arrAt_zero, arrAt_zero]
  iintro ⟨H26, H29, H30, H31⟩
  ihave H26 := (pointsTo_share (PosShare.mem_left_op_right fullShare)).1 $$ H26
  icases H26 with ⟨Ha, Hb⟩
  isplitl [Ha]; · iexact Ha
  isplitl [Hb]; · iexact Hb
  isplitl [H29]; · iexact H29
  isplitl [H30]; · iexact H30
  iexact H31

/-- At exit: the two halves are put together again; the result array holds what the last point wrote back. -/
theorem hjoin (c : Dev nD) : (dats m 0 c).arrays ((dats m 0 c).arrAt · cfg0.N) ⊢ (Pipeline.arrBufs spec0 c (fun b => Wx m c (Proc.devRef .tc b)) : sProp 𝕄) := by
  unfold Pipeline.arrBufs
  rw [bigSep_arr]
  beta_reduce
  rw [arrays_eq', arrAt_0, arrAt_1, arrAt_2, arrAt_3, Wx_ne m c main_v26 (by decide), Wx_ne m c main_v29 (by decide), Wx_ne m c main_v30 (by decide), Wx_v31]
  iintro ⟨Ha, Hb, H29, H30, H31⟩
  isplitl [Ha Hb]
  · iapply (pointsTo_share (PosShare.mem_left_op_right fullShare)).2
    isplitl [Ha]; · iexact Ha
    iexact Hb
  isplitl [H29]; · iexact H29
  isplitl [H30]; · iexact H30
  iexact H31

/-- And dealt again for the later operations' frame. -/
theorem hdeal' (c : Dev nD) : (Pipeline.arrBufs spec0 c (fun b => Wx m c (Proc.devRef .tc b)) : sProp 𝕄) ⊢ (dats m 0 c).arrays ((dats m 0 c).arrAt · cfg0.N) := by
  unfold Pipeline.arrBufs
  rw [bigSep_arr]
  beta_reduce
  rw [arrays_eq', arrAt_0, arrAt_1, arrAt_2, arrAt_3, Wx_ne m c main_v26 (by decide), Wx_ne m c main_v29 (by decide), Wx_ne m c main_v30 (by decide), Wx_v31]
  iintro ⟨H26, H29, H30, H31⟩
  ihave H26 := (pointsTo_share (PosShare.mem_left_op_right fullShare)).1 $$ H26
  icases H26 with ⟨Ha, Hb⟩
  isplitl [Ha]; · iexact Ha
  isplitl [Hb]; · iexact Hb
  isplitl [H29]; · iexact H29
  isplitl [H30]; · iexact H30
  iexact H31

/-! ## The run -/

/-- Every weakly fair execution of @main terminates; each window's array ends at what the write-backs leave in it, and
    every other buffer at what the later host operations compute from the contents at the region's exit. -/
theorem run_main : θ_run defs (onTc (τ := τ) (main (F := F))) (s₀ m ρ) (fun r => ∀ c : Dev nD,
      (∀ w, r.2.mem ((spec0 w).arr.view.loc (c.tc : Thread nD τ)) = (dats m 0 c).arrAt w cfg0.N)
        ∧ ∀ b ∈ Pipeline.restRefs sig spec0, r.2.mem ((c.tc : Thread nD τ).loc b) = Cert.SharedFrame.finalAt (Wx m) [hostOps1] c b) :=
  Cert.SharedFrame.θ_run_around_shared cfgs (dats m) (0 : Fin 1) defs₀ Variants.none
    cellOf_inj winFacts₀0 block_pos0 arr_whole0 stage_whole0 m ρ main
    (hbody := fun c => (body_obligation m c).loose) (howed := fun _ _ => rfl)
    (V₀ := V0 m) (W := Wx m) (opss := [hostOps1]) (hsub := sfx_sub) (hfresh := sfx_fresh) (hkeep := sfx_keeps)
    (hmain := hmain m Variants.none) (hWrest := hWrest m) (hdeal := hdeal m) (hjoin := hjoin m) (hdeal' := hdeal' m)
    (hin := hin m) (hout := hout m)

end Cert.KernelIdeal.Hand

end
-- ==== Proof.KI.Blocks.lean ====
/-
  Which rows of their arrays the windows' blocks are, and the result array after the run. Grid point t lies in
  block-row t / 8 and block-column t % 8: the first and third windows hold rows (t / 8)·1024 … of the sample matrix and
  of the norms' column, the second and fourth rows (t % 8)·2048 … of the sample matrix and columns of the norms' row.
  The one-element result array is written back once, at the last point, with the accumulator.
-/
import proofs.«109620_j24661702214232_1_alg».proof.Proof.KI.Run
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The block indices over the grid -/

theorem idx_0 : ∀ t : Fin cfg0.N, win0_0.index t 0 = t.val / 8 ∧ win0_0.index t 1 = 0 :=
  (by decide +kernel : ∀ t : Fin grid0.N, win0_0.index t 0 = t.val / 8 ∧ win0_0.index t 1 = 0)
theorem idx_1 : ∀ t : Fin cfg0.N, win0_1.index t 0 = t.val % 8 ∧ win0_1.index t 1 = 0 :=
  (by decide +kernel : ∀ t : Fin grid0.N, win0_1.index t 0 = t.val % 8 ∧ win0_1.index t 1 = 0)
theorem idx_2 : ∀ t : Fin cfg0.N, win0_2.index t 0 = t.val / 8 ∧ win0_2.index t 1 = 0 :=
  (by decide +kernel : ∀ t : Fin grid0.N, win0_2.index t 0 = t.val / 8 ∧ win0_2.index t 1 = 0)
theorem idx_3 : ∀ t : Fin cfg0.N, win0_3.index t 0 = 0 ∧ win0_3.index t 1 = t.val % 8 :=
  (by decide +kernel : ∀ t : Fin grid0.N, win0_3.index t 0 = 0 ∧ win0_3.index t 1 = t.val % 8)
theorem idx_4 : ∀ t : Fin cfg0.N, win0_4.index t 0 = 0 ∧ win0_4.index t 1 = 0 :=
  (by decide +kernel : ∀ t : Fin grid0.N, win0_4.index t 0 = 0 ∧ win0_4.index t 1 = 0)

/-! ## A block read at an element: the array at the block's offset plus the element's coordinates -/

theorem blk0_read (c : Dev nD) (Y : Buf (Elt F) ((cfg0.win 0).arr.view.loc (c.tc : Thread nD τ))) (t : Fin cfg0.N) (x : S1024x16.Idx) (k : S16384x16.Idx)
    (hk0 : (k 0).val = (t.val / 8) * 1024 + (x 0).val) (hk1 : (k 1).val = (x 1).val) :
    (((cfg0.win 0).blk t).view.read (Elt F) Y : S1024x16.Idx → Elt F .f32) x = (Y : S16384x16.Idx → Elt F .f32) k := by
  rw [View.read_apply]
  show (Y : S16384x16.Idx → Elt F .f32) _ = _
  congr 1
  funext a
  apply Fin.ext
  match a with
  | ⟨0, _⟩ => show win0_0.index t 0 * 1024 + 1 * (x 0).val = (k 0).val; rw [(idx_0 t).1, hk0]; omega
  | ⟨1, _⟩ => show win0_0.index t 1 * 16 + 1 * (x 1).val = (k 1).val; rw [(idx_0 t).2, hk1]; omega

theorem blk1_read (c : Dev nD) (Y : Buf (Elt F) ((cfg0.win 1).arr.view.loc (c.tc : Thread nD τ))) (t : Fin cfg0.N) (x : S2048x16.Idx) (k : S16384x16.Idx)
    (hk0 : (k 0).val = (t.val % 8) * 2048 + (x 0).val) (hk1 : (k 1).val = (x 1).val) :
    (((cfg0.win 1).blk t).view.read (Elt F) Y : S2048x16.Idx → Elt F .f32) x = (Y : S16384x16.Idx → Elt F .f32) k := by
  rw [View.read_apply]
  show (Y : S16384x16.Idx → Elt F .f32) _ = _
  congr 1
  funext a
  apply Fin.ext
  match a with
  | ⟨0, _⟩ => show win0_1.index t 0 * 2048 + 1 * (x 0).val = (k 0).val; rw [(idx_1 t).1, hk0]; omega
  | ⟨1, _⟩ => show win0_1.index t 1 * 16 + 1 * (x 1).val = (k 1).val; rw [(idx_1 t).2, hk1]; omega

theorem blk2_read (c : Dev nD) (Y : Buf (Elt F) ((cfg0.win 2).arr.view.loc (c.tc : Thread nD τ))) (t : Fin cfg0.N) (x : S1024x1.Idx) (k : S16384x1.Idx)
    (hk0 : (k 0).val = (t.val / 8) * 1024 + (x 0).val) (hk1 : (k 1).val = (x 1).val) :
    (((cfg0.win 2).blk t).view.read (Elt F) Y : S1024x1.Idx → Elt F .f32) x = (Y : S16384x1.Idx → Elt F .f32) k := by
  rw [View.read_apply]
  show (Y : S16384x1.Idx → Elt F .f32) _ = _
  congr 1
  funext a
  apply Fin.ext
  match a with
  | ⟨0, _⟩ => show win0_2.index t 0 * 1024 + 1 * (x 0).val = (k 0).val; rw [(idx_2 t).1, hk0]; omega
  | ⟨1, _⟩ => show win0_2.index t 1 * 1 + 1 * (x 1).val = (k 1).val; rw [(idx_2 t).2, hk1]; omega

theorem blk3_read (c : Dev nD) (Y : Buf (Elt F) ((cfg0.win 3).arr.view.loc (c.tc : Thread nD τ))) (t : Fin cfg0.N) (x : S1x2048.Idx) (k : S1x16384.Idx)
    (hk0 : (k 0).val = (x 0).val) (hk1 : (k 1).val = (t.val % 8) * 2048 + (x 1).val) :
    (((cfg0.win 3).blk t).view.read (Elt F) Y : S1x2048.Idx → Elt F .f32) x = (Y : S1x16384.Idx → Elt F .f32) k := by
  rw [View.read_apply]
  show (Y : S1x16384.Idx → Elt F .f32) _ = _
  congr 1
  funext a
  apply Fin.ext
  match a with
  | ⟨0, _⟩ => show win0_3.index t 0 * 1 + 1 * (x 0).val = (k 0).val; rw [(idx_3 t).1, hk0]; omega
  | ⟨1, _⟩ => show win0_3.index t 1 * 2048 + 1 * (x 1).val = (k 1).val; rw [(idx_3 t).2, hk1]; omega

/-! ## The result array after the run -/

/-- The last point of the grid. -/
abbrev tLast : Fin cfg0.N := ⟨127, by rw [show cfg0.N = 128 from N_0]; decide⟩

/-- The one write-back writes the accumulator's final value: block (0, 0) of a [1, 1] array is the array. -/
theorem flushed_eq (c : Dev nD) (t : Fin cfg0.N) (hf : (cfg0.win 4).flush t = true) :
    (dats m 0 c).flushed 4 t = ((cfg0.win 4).blk t).view.read (Elt F) (accAt m c 127 (by rw [show cfg0.N = 128 from N_0]; decide)) := by
  have hN : cfg0.N = 128 := N_0
  have h1 : t.val = 127 := by have := (flush0_4 t).mp hf; have := t.isLt; omega
  obtain rfl : t = tLast := Fin.ext h1
  show (cfg0.win 4).cut (grid0.coords tLast) ((dats m 0 c).after 4 tLast) = _
  rw [after_4]
  have hz' : (fun a => win0_4.index tLast a * main_v31.ty.shape.size a) = fun _ => 0 := funext fun a => by fin_cases a <;> decide +kernel
  exact (Memref.read_access_unit_zero (Elt F) main_v31 hz' (fun a => by rw [congrFun hz' a]; simp) (accAt m c 127 _)).symm

/-- The last point's block of the one-element result array is the whole array. -/
theorem out_cover : ∀ i : S1x1.Idx, i ∈ ((cfg0.win 4).blk tLast).view.set := by decide +kernel

/-- So the result array ends holding the accumulator's final value. -/
theorem final_out (c : Dev nD) : (dats m 0 c).arrAt 4 cfg0.N = accAt m c 127 (by rw [show cfg0.N = 128 from N_0]; decide) :=
  (dats m 0 c).arrAt_eq_of_cover 4 (accAt m c 127 _) (flushed_eq m c) fun i => ⟨tLast, (flush0_4 tLast).mpr rfl, out_cover i⟩

end Cert.KernelIdeal.Hand

end
-- ==== Proof.LibTiledSum.lean ====
/-
  A double sum over I·A rows and J·B columns regrouped into I·J tiles of A rows by B columns, the tiles numbered
  row by row (tile t lies in block-row t / J and block-column t % J), in any commutative additive monoid: the sum of
  all entries is the sum over the tiles of each tile's own sum. Only commutativity and associativity of addition are
  used, so this holds on the extended reals with no finiteness assumption.

  Also: a rank-three index set with a leading axis of extent one is the rank-two index set of its other two axes, so a
  sum over the one is a sum over the other.
-/
import Mathlib.Algebra.BigOperators.Fin
import Mathlib.Algebra.BigOperators.Group.Finset.Basic
import Mathlib.Logic.Equiv.Fin.Basic
import Idealize.ShloMosaic.Lib.ValueIdx

namespace Cert.TiledSum

open Finset Idealize.ShloMosaic Idealize.ShloMosaic.ValueIdx

variable {M : Type*} [AddCommMonoid M]

/-- Row `q` of block `i`, among `I` blocks of `A` rows each. -/
def blockRow {I A : ℕ} (i : Fin I) (q : Fin A) : Fin (I * A) :=
  ⟨i.val * A + q.val, by
    have hi := i.isLt; have hq := q.isLt
    calc i.val * A + q.val < i.val * A + A := by omega
      _ = (i.val + 1) * A := by ring
      _ ≤ I * A := Nat.mul_le_mul_right A (by omega)⟩

@[simp] theorem blockRow_val {I A : ℕ} (i : Fin I) (q : Fin A) : (blockRow i q).val = i.val * A + q.val := rfl

/-- A sum over all rows is the sum over the blocks of the sum over each block's rows. -/
theorem sum_blockRow {I A : ℕ} (g : Fin (I * A) → M) : ∑ a, g a = ∑ i : Fin I, ∑ q : Fin A, g (blockRow i q) := by
  rw [← Fintype.sum_prod_type' (fun i q => g (blockRow i q)), ← (finProdFinEquiv (m := I) (n := A)).sum_comp g]
  refine Fintype.sum_congr _ _ fun p => congrArg g (Fin.ext ?_)
  show p.2.val + A * p.1.val = p.1.val * A + p.2.val
  rw [Nat.mul_comm, Nat.add_comm]

/-- The block-row and block-column of tile `t` when the tiles are numbered row by row. -/
def tileRow {I J : ℕ} (t : Fin (I * J)) : Fin I := t.divNat
def tileCol {I J : ℕ} (t : Fin (I * J)) : Fin J := t.modNat

@[simp] theorem tileRow_val {I J : ℕ} (t : Fin (I * J)) : (tileRow t).val = t.val / J := rfl
@[simp] theorem tileCol_val {I J : ℕ} (t : Fin (I * J)) : (tileCol t).val = t.val % J := rfl

/-- A sum over the tiles, numbered row by row, is the sum over block-rows and block-columns. -/
theorem sum_tileIdx {I J : ℕ} (h : Fin I → Fin J → M) : ∑ t : Fin (I * J), h (tileRow t) (tileCol t) = ∑ i, ∑ j, h i j := by
  rw [← Fintype.sum_prod_type' h, ← (finProdFinEquiv (m := I) (n := J)).sum_comp (fun t => h (tileRow t) (tileCol t))]
  refine Fintype.sum_congr _ _ fun p => ?_
  have e := (finProdFinEquiv (m := I) (n := J)).symm_apply_apply p
  have e1 : tileRow (finProdFinEquiv p) = p.1 := congrArg Prod.fst e
  have e2 : tileCol (finProdFinEquiv p) = p.2 := congrArg Prod.snd e
  rw [e1, e2]

/-- THE REGROUPING: the sum of all entries is the sum over the tiles of each tile's sum. -/
theorem sum_tiles {I J A B : ℕ} (f : Fin (I * A) → Fin (J * B) → M) :
    ∑ a, ∑ b, f a b = ∑ t : Fin (I * J), ∑ q : Fin A, ∑ k : Fin B, f (blockRow (tileRow t) q) (blockRow (tileCol t) k) := by
  rw [sum_tileIdx (fun i j => ∑ q : Fin A, ∑ k : Fin B, f (blockRow i q) (blockRow j k)), sum_blockRow]
  refine Fintype.sum_congr _ _ fun i => ?_
  have hq : ∀ q : Fin A, ∑ b, f (blockRow i q) b = ∑ j : Fin J, ∑ k : Fin B, f (blockRow i q) (blockRow j k) :=
    fun q => sum_blockRow _
  rw [Fintype.sum_congr _ _ hq]
  exact Finset.sum_comm

/-! ## A leading axis of extent one -/

/-- A rank-three index whose leading axis has extent one is the rank-two index of its other two axes. -/
def dropLead (a b : ℕ) : (⟨3, ![1, a, b]⟩ : Shape).Idx ≃ (⟨2, ![a, b]⟩ : Shape).Idx where
  toFun j := ix2 (j 1) (j 2)
  invFun i := ix3 (0 : Fin 1) (i 0) (i 1)
  left_inv j := by
    funext x
    match x with
    | ⟨0, h⟩ => exact Fin.ext (by have h1 : (j ⟨0, h⟩).val < 1 := (j ⟨0, h⟩).isLt; show 0 = (j ⟨0, h⟩).val; omega)
    | ⟨1, _⟩ => rfl
    | ⟨2, _⟩ => rfl
  right_inv i := by
    funext x
    match x with
    | ⟨0, _⟩ => rfl
    | ⟨1, _⟩ => rfl

/-- The index a cast that adds a leading unit axis reads is the other two coordinates. -/
theorem tail_eq_dropLead (a b : ℕ) (j : (⟨3, ![1, a, b]⟩ : Shape).Idx) :
    (fun x : Fin 2 => j x.succ : (⟨2, ![a, b]⟩ : Shape).Idx) = dropLead a b j := by
  funext x
  match x with
  | ⟨0, _⟩ => rfl
  | ⟨1, _⟩ => rfl

/-- So a sum over the rank-three indices is the double sum over the two trailing axes. -/
theorem sum_dropLead (a b : ℕ) (G : (⟨3, ![1, a, b]⟩ : Shape).Idx → M) (g : (⟨2, ![a, b]⟩ : Shape).Idx → M)
    (h : ∀ j, G j = g (fun x : Fin 2 => j x.succ)) : ∑ j, G j = ∑ q : Fin a, ∑ k : Fin b, g (ix2 q k) := by
  rw [Fintype.sum_congr _ _ h, ← sum_idx2 g, ← (dropLead a b).sum_comp g]
  exact Fintype.sum_congr _ _ fun j => congrArg g (tail_eq_dropLead a b j)

end Cert.TiledSum
-- ==== Proof.KI.Pay.lean ====
/-
  The body's arithmetic at the extended reals. A tile's entry (q, k) is exp(-d/2) with
  d = max(r[q] + r[k] - 2·<row q of the first block, row k of the second>, 0), the inner product taken over the
  sixteen features; the body's payload adds the sum of all entries of the tile to the accumulator's one element.
-/
import proofs.«109620_j24661702214232_1_alg».proof.Proof.Gen.KernelIdeal.Skeleton
import proofs.«109620_j24661702214232_1_alg».proof.Proof.LibTiledSum
import Idealize.ShloMosaic.Lib.Pipeline.Value
import Idealize.ShloMosaic.Lib.ValueIdx
import Idealize.ShloMosaic.PureOps.Ideal.Laws

set_option maxRecDepth 16384

noncomputable section

namespace Cert.KernelIdeal.Hand

open Idealize.ShloMosaic Idealize.ShloMosaic.ValueIdx Idealize.SL.Sem
open Cert.KernelIdeal Cert.KernelIdeal.Facts₀
open Cert.KernelIdeal.Gen (k0_pay1 k0_pay2)

variable {F : FTy → Type} [FloatOps F]

/-! ## The tile as a vector, in the program's spelling -/

/-- The [1024, 2048] tile of exp(-d/2) the body forms from its four input blocks. -/
def tileVec (v5 : Vec F S1024x16 .f32) (v7 : Vec F S2048x16 .f32) (v11 : Vec F S1024x1 .f32) (v13 : Vec F S1x2048 .f32) : FVec F S1024x2048 .f32 :=
  have v6 : FVec F S1024x16 .f32 := shapeCast S1024x16 v5 shapeCasts_S1024x16_S1024x16
  have v8 : FVec F S2048x16 .f32 := shapeCast S2048x16 v7 shapeCasts_S2048x16_S2048x16
  have v9 : FVec F S16x2048 .f32 := transpose S16x2048 [1, 0] v8 transposes_S2048x16_p1_0_S16x2048
  have cst : FVec F S1024x2048 .f32 := constant S1024x2048 .f32 0x00000000#32
  have v10 : FVec F S1024x2048 .f32 := matmul dot_S1024x16_S16x2048_S1024x2048_1_0_0_1_n_n none v6 v9 cst
  have v12 : FVec F S1024x1 .f32 := shapeCast S1024x1 v11 shapeCasts_S1024x1_S1024x1
  have v14 : FVec F S1x2048 .f32 := shapeCast S1x2048 v13 shapeCasts_S1x2048_S1x2048
  have v15 : FVec F S1024x2048 .f32 := broadcastTo S1024x2048 v12 broadcasts_S1024x1_S1024x2048
  have v16 : FVec F S1024x2048 .f32 := broadcastTo S1024x2048 v14 broadcasts_S1x2048_S1024x2048
  have v17 : FVec F S1024x2048 .f32 := addf v15 v16
  have cst_9 : F .f32 := Scalar.ofBits .f32 0x40000000#32
  have v18 : FVec F S1024x2048 .f32 := broadcast S1024x2048 cst_9
  have v19 : FVec F S1024x2048 .f32 := mulf v18 v10
  have v20 : FVec F S1024x2048 .f32 := subf v17 v19
  have cst_10 : F .f32 := Scalar.ofBits .f32 0x00000000#32
  have v21 : FVec F S1024x2048 .f32 := broadcast S1024x2048 cst_10
  have v22 : FVec F S1024x2048 .f32 := maximumf v20 v21
  have cst_13 : F .f32 := Scalar.ofBits .f32 0xBF000000#32
  have v24 : FVec F S1024x2048 .f32 := broadcast S1024x2048 cst_13
  have v25 : FVec F S1024x2048 .f32 := mulf v24 v22
  have v26 : FVec F S1024x2048 .f32 := exp v25
  v26

/-- The body's payload: the accumulator plus the tile's total. -/
theorem pay2_eq (v5 : Vec F S1024x16 .f32) (v7 : Vec F S2048x16 .f32) (v11 : Vec F S1024x1 .f32) (v13 : Vec F S1x2048 .f32) (v23 : Vec F S1x1 .f32) :
    k0_pay2 v5 v7 v11 v13 v23 = shapeCast S1x1 (addf v23 (broadcast S1x1 (extractAt ![0, 0, 0]
      (shapeCast S1x1x1 (multiReduction .add [1, 2] S1 (shapeCast S1x1024x2048 (tileVec v5 v7 v11 v13) shapeCasts_S1024x2048_S1x1024x2048)
        0x00000000#32 reduces_S1x1024x2048_S1 (.inl rfl) rfl) shapeCasts_S1_S1x1x1) inpos_S1x1x1_p0_0_0))) shapeCasts_S1x1_S1x1 := rfl

/-! ## At the extended reals -/

/-- One pair's term: exp(-d/2), d the squared distance clamped at zero, written with the program's literals. -/
def pairE (x0 : Vec Ideal S1024x16 .f32) (x1 : Vec Ideal S2048x16 .f32) (x2 : Vec Ideal S1024x1 .f32) (x3 : Vec Ideal S1x2048 .f32)
    (q : Fin 1024) (k : Fin 2048) : EReal :=
  Ideal.exp (Ideal.ofBits .f32 0xBF000000#32 * max ((x2 (ix2 q 0) + x3 (ix2 0 k))
    - Ideal.ofBits .f32 0x40000000#32 * ∑ d : Fin 16, x0 (ix2 q d) * x1 (ix2 k d)) (Ideal.ofBits .f32 0x00000000#32))

/-- A column [1024, 1] spread along the lanes reads its row. -/
theorem col_apply (x2 : Vec Ideal S1024x1 .f32) (q : Fin 1024) (k : Fin 2048) :
    broadcastTo S1024x2048 x2 broadcasts_S1024x1_S1024x2048 (ix2 q k) = x2 (ix2 q 0) :=
  broadcastTo_apply _ _ _ (ix2 q 0) fun a => match a with
    | ⟨0, _⟩ => by show q.val = if (1024 : ℕ) = 1 then 0 else q.val; rw [if_neg (by decide)]
    | ⟨1, _⟩ => by show (0 : ℕ) = if (1 : ℕ) = 1 then 0 else k.val; rw [if_pos rfl]

/-- A row [1, 2048] spread down the sublanes reads its column. -/
theorem row_apply (x3 : Vec Ideal S1x2048 .f32) (q : Fin 1024) (k : Fin 2048) :
    broadcastTo S1024x2048 x3 broadcasts_S1x2048_S1024x2048 (ix2 q k) = x3 (ix2 0 k) :=
  broadcastTo_apply _ _ _ (ix2 0 k) fun a => match a with
    | ⟨0, _⟩ => by show (0 : ℕ) = if (1 : ℕ) = 1 then 0 else q.val; rw [if_pos rfl]
    | ⟨1, _⟩ => by show k.val = if (2048 : ℕ) = 1 then 0 else k.val; rw [if_neg (by decide)]

theorem lhs_0 (i : S1024x2048.Idx) (κ : dot_S1024x16_S16x2048_S1024x2048_1_0_0_1_n_n.contr.Idx) : (DotDims.lhsIdx dot_S1024x16_S16x2048_S1024x2048_1_0_0_1_n_n i κ 0).val = (i 0).val := by
  unfold DotDims.lhsIdx
  rw [dif_neg (show ¬(0 : Fin S1024x16.rank) ∈ dot_S1024x16_S16x2048_S1024x2048_1_0_0_1_n_n.lhsBatch by decide), dif_pos (show (0 : Fin S1024x16.rank) ∈ dot_S1024x16_S16x2048_S1024x2048_1_0_0_1_n_n.lhsNonContracting by decide)]
  rfl
theorem lhs_1 (i : S1024x2048.Idx) (κ : dot_S1024x16_S16x2048_S1024x2048_1_0_0_1_n_n.contr.Idx) : (DotDims.lhsIdx dot_S1024x16_S16x2048_S1024x2048_1_0_0_1_n_n i κ 1).val = (κ ⟨0, by decide⟩).val :=
  DotDims.lhsIdx_val_of_single dot_S1024x16_S16x2048_S1024x2048_1_0_0_1_n_n rfl i κ
theorem rhs_0 (i : S1024x2048.Idx) (κ : dot_S1024x16_S16x2048_S1024x2048_1_0_0_1_n_n.contr.Idx) : (DotDims.rhsIdx dot_S1024x16_S16x2048_S1024x2048_1_0_0_1_n_n i κ 0).val = (κ ⟨0, by decide⟩).val :=
  DotDims.rhsIdx_val_of_single dot_S1024x16_S16x2048_S1024x2048_1_0_0_1_n_n rfl i κ
theorem rhs_1 (i : S1024x2048.Idx) (κ : dot_S1024x16_S16x2048_S1024x2048_1_0_0_1_n_n.contr.Idx) : (DotDims.rhsIdx dot_S1024x16_S16x2048_S1024x2048_1_0_0_1_n_n i κ 1).val = (i 1).val := by
  unfold DotDims.rhsIdx
  rw [dif_neg (show ¬(1 : Fin S16x2048.rank) ∈ dot_S1024x16_S16x2048_S1024x2048_1_0_0_1_n_n.rhsBatch by decide), dif_pos (show (1 : Fin S16x2048.rank) ∈ dot_S1024x16_S16x2048_S1024x2048_1_0_0_1_n_n.rhsNonContracting by decide)]
  rfl

/-- The cross term: entry (q, k) of the first block times the transposed second block is the inner product of
    row q of the one and row k of the other. -/
theorem cross_apply (x0 : FVec Ideal S1024x16 .f32) (x1 : FVec Ideal S2048x16 .f32) (q : Fin 1024) (k : Fin 2048) :
    matmul (F := Ideal) dot_S1024x16_S16x2048_S1024x2048_1_0_0_1_n_n none x0 (transpose S16x2048 [1, 0] x1 transposes_S2048x16_p1_0_S16x2048) (constant S1024x2048 .f32 0x00000000#32) (ix2 q k)
      = ∑ d : Fin 16, x0 (ix2 q d) * x1 (ix2 k d) := by
  simp only [matmul]
  rw [Ideal.matmul_constant_zero_apply, ← Equiv.sum_comp (contrEquiv1 dot_S1024x16_S16x2048_S1024x2048_1_0_0_1_n_n 16 rfl rfl).symm]
  refine Finset.sum_congr rfl fun d _ => ?_
  have hd := contrEquiv1_symm_val dot_S1024x16_S16x2048_S1024x2048_1_0_0_1_n_n 16 rfl rfl d
  have el : DotDims.lhsIdx dot_S1024x16_S16x2048_S1024x2048_1_0_0_1_n_n (ix2 q k) ((contrEquiv1 dot_S1024x16_S16x2048_S1024x2048_1_0_0_1_n_n 16 rfl rfl).symm d) = ix2 q d := funext fun a => Fin.ext (by
    match a with
    | ⟨0, _⟩ => exact lhs_0 _ _
    | ⟨1, _⟩ => exact (lhs_1 _ _).trans hd)
  rw [el]
  congr 1
  refine transpose_apply _ _ _ _ (ix2 k d) fun b => ?_
  match b with
  | ⟨0, _⟩ => show (d : ℕ) = _; exact hd.symm.trans (rhs_0 _ _).symm
  | ⟨1, _⟩ => show (k : ℕ) = _; exact (rhs_1 (ix2 q k) _).symm

/-- The tile at (q, k) is the pair's term. -/
theorem tileVec_apply (x0 : Vec Ideal S1024x16 .f32) (x1 : Vec Ideal S2048x16 .f32) (x2 : Vec Ideal S1024x1 .f32) (x3 : Vec Ideal S1x2048 .f32)
    (q : Fin 1024) (k : Fin 2048) : tileVec (F := Ideal) x0 x1 x2 x3 (ix2 q k) = pairE x0 x1 x2 x3 q k := by
  unfold tileVec pairE
  simp only [shapeCast_self]
  show Ideal.exp (Ideal.ofBits .f32 0xBF000000#32 * max ((broadcastTo S1024x2048 x2 broadcasts_S1024x1_S1024x2048 (ix2 q k)
      + broadcastTo S1024x2048 x3 broadcasts_S1x2048_S1024x2048 (ix2 q k))
    - Ideal.ofBits .f32 0x40000000#32 * matmul (F := Ideal) dot_S1024x16_S16x2048_S1024x2048_1_0_0_1_n_n none (x0 : FVec Ideal S1024x16 .f32)
        (transpose S16x2048 [1, 0] (x1 : FVec Ideal S2048x16 .f32) transposes_S2048x16_p1_0_S16x2048)
        (constant S1024x2048 .f32 0x00000000#32) (ix2 q k)) (Ideal.ofBits .f32 0x00000000#32)) = _
  rw [col_apply, row_apply, cross_apply]

theorem pay1_apply (i : S1x1.Idx) : k0_pay1 (F := Ideal) i = 0 := by
  unfold k0_pay1
  simp only [shapeCast_self]
  exact Ideal.ofBits_zero_f32

/-- The payload's one element: the accumulator's plus the sum of the tile's entries. -/
theorem pay2_apply (x0 : Vec Ideal S1024x16 .f32) (x1 : Vec Ideal S2048x16 .f32) (x2 : Vec Ideal S1024x1 .f32) (x3 : Vec Ideal S1x2048 .f32)
    (s : Vec Ideal S1x1 .f32) (i : S1x1.Idx) :
    k0_pay2 (F := Ideal) x0 x1 x2 x3 s i = s i + ∑ q : Fin 1024, ∑ k : Fin 2048, pairE x0 x1 x2 x3 q k := by
  rw [pay2_eq, shapeCast_self]
  show s i + shapeCast S1x1x1 (multiReduction .add [1, 2] S1 (shapeCast S1x1024x2048 (tileVec (F := Ideal) x0 x1 x2 x3) shapeCasts_S1024x2048_S1x1024x2048)
        0x00000000#32 reduces_S1x1024x2048_S1 (.inl rfl) rfl) shapeCasts_S1_S1x1x1 (fun a => ⟨![0, 0, 0] a, inpos_S1x1x1_p0_0_0 a⟩) = _
  congr 1
  refine (shapeCast_apply _ _ _ (ix1 (0 : Fin 1)) (by rfl)).trans ?_
  refine (Ideal.multiReduction_add_total _ 0x00000000#32 reduces_S1x1024x2048_S1 (fun b => by fin_cases b; rfl) (.inl rfl) rfl (ix1 0)).trans ?_
  refine (Cert.TiledSum.sum_dropLead 1024 2048 _ (tileVec (F := Ideal) x0 x1 x2 x3) fun j => ?_).trans ?_
  · exact shapeCast_addUnit_apply ![1024, 2048] _ _ j
  · exact Finset.sum_congr rfl fun q _ => Finset.sum_congr rfl fun k _ => tileVec_apply x0 x1 x2 x3 q k

end Cert.KernelIdeal.Hand

end
-- ==== Proof.KI.Sum.lean ====
/-
  The accumulator as a sum. At the extended reals the accumulator after grid point n is the sum of the tiles' totals
  over the points up to n, a tile's total being the sum over its 1024 × 2048 pairs of exp(-d/2); after the last point
  that is the sum over ALL pairs of samples, since the tiles partition the 16384 × 16384 pairs. Only the
  commutativity and associativity of addition are used: no entry need be finite.
-/
import proofs.«109620_j24661702214232_1_alg».proof.Proof.KI.Blocks
import proofs.«109620_j24661702214232_1_alg».proof.Proof.KI.Pay

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

/-! ## One pair's term over the whole arrays, and a tile's total -/

/-- exp(-d/2) for the pair (a, b) of samples: d the clamped squared distance from the norms' column, the norms' row
    and the inner product of the two samples. -/
def pairG (X : S16384x16.Idx → EReal) (R1 : S16384x1.Idx → EReal) (R2 : S1x16384.Idx → EReal) (a b : Fin 16384) : EReal :=
  Ideal.exp (Ideal.ofBits .f32 0xBF000000#32 * max ((R1 (ix2 a 0) + R2 (ix2 0 b))
    - Ideal.ofBits .f32 0x40000000#32 * ∑ d : Fin 16, X (ix2 a d) * X (ix2 b d)) (Ideal.ofBits .f32 0x00000000#32))

/-- Row q of the block-row of grid point t, and column k of its block-column. -/
def rowOf (t : ℕ) (q : Fin 1024) : Fin 16384 := ⟨(t / 8 % 16) * 1024 + q.val, by have := q.isLt; omega⟩
def colOf (t : ℕ) (k : Fin 2048) : Fin 16384 := ⟨(t % 8) * 2048 + k.val, by have := k.isLt; omega⟩

/-- The total of tile t. -/
def tileG (X : S16384x16.Idx → EReal) (R1 : S16384x1.Idx → EReal) (R2 : S1x16384.Idx → EReal) (t : ℕ) : EReal :=
  ∑ q : Fin 1024, ∑ k : Fin 2048, pairG X R1 R2 (rowOf t q) (colOf t k)

/-- The 128 tiles partition the pairs: their totals add up to the sum over all pairs. -/
theorem tiles_total (X : S16384x16.Idx → EReal) (R1 : S16384x1.Idx → EReal) (R2 : S1x16384.Idx → EReal) :
    ∑ t ∈ Finset.range 128, tileG X R1 R2 t = ∑ a : Fin 16384, ∑ b : Fin 16384, pairG X R1 R2 a b := by
  rw [← Fin.sum_univ_eq_sum_range (fun t => tileG X R1 R2 t) 128]
  refine Eq.trans ?_ (Cert.TiledSum.sum_tiles (I := 16) (J := 8) (A := 1024) (B := 2048)
    (fun (a : Fin (16 * 1024)) (b : Fin (8 * 2048)) => pairG X R1 R2 a b)).symm
  refine Fintype.sum_congr _ _ fun t => Fintype.sum_congr _ _ fun q => Fintype.sum_congr _ _ fun k => ?_
  have ht : t.val < 128 := t.isLt
  have e1 : rowOf t.val q = Cert.TiledSum.blockRow (I := 16) (A := 1024) (Cert.TiledSum.tileRow (I := 16) (J := 8) t) q := Fin.ext (by
    show (t.val / 8 % 16) * 1024 + q.val = (t.val / 8) * 1024 + q.val
    omega)
  have e2 : colOf t.val k = Cert.TiledSum.blockRow (I := 8) (A := 2048) (Cert.TiledSum.tileCol (I := 16) (J := 8) t) k := Fin.ext (by
    show (t.val % 8) * 2048 + k.val = (t.val % 8) * 2048 + k.val
    rfl)
  rw [e1, e2]

/-! ## The accumulator -/

variable (m : (ℓ : Loc nD τ sig) → Buf (Elt Ideal) ℓ)

/-- The arrays the region's windows read, as the region finds them. -/
abbrev Xs (c : Dev nD) : S16384x16.Idx → EReal := V m c main_v26
abbrev R1s (c : Dev nD) : S16384x1.Idx → EReal := V m c main_v29
abbrev R2s (c : Dev nD) : S1x16384.Idx → EReal := V m c main_v30

/-- A pair's term over the blocks of point t is the pair's term over the whole arrays at the block's rows. -/
theorem pairE_blocks (c : Dev nD) (t : Fin cfg0.N) (q : Fin 1024) (k : Fin 2048) :
    pairE (iblk m c 0 t) (iblk m c 1 t) (iblk m c 2 t) (iblk m c 3 t) q k = pairG (Xs m c) (R1s m c) (R2s m c) (rowOf t.val q) (colOf t.val k) := by
  have hN : t.val < 128 := lt_of_lt_of_eq t.isLt (show cfg0.N = 128 from N_0)
  have h0 : ∀ d : Fin 16, (iblk m c 0 t : S1024x16.Idx → EReal) (ix2 q d) = Xs m c (ix2 (rowOf t.val q) d) := fun d =>
    blk0_read c (V m c (Pipeline.arrRef spec0 0)) t (ix2 q d) (ix2 (rowOf t.val q) d)
      (by show (t.val / 8 % 16) * 1024 + q.val = (t.val / 8) * 1024 + q.val; omega) rfl
  have h1 : ∀ d : Fin 16, (iblk m c 1 t : S2048x16.Idx → EReal) (ix2 k d) = Xs m c (ix2 (colOf t.val k) d) := fun d =>
    blk1_read c (V m c (Pipeline.arrRef spec0 1)) t (ix2 k d) (ix2 (colOf t.val k) d) rfl rfl
  have h2 : (iblk m c 2 t : S1024x1.Idx → EReal) (ix2 q 0) = R1s m c (ix2 (rowOf t.val q) 0) :=
    blk2_read c (V m c (Pipeline.arrRef spec0 2)) t (ix2 q 0) (ix2 (rowOf t.val q) 0)
      (by show (t.val / 8 % 16) * 1024 + q.val = (t.val / 8) * 1024 + q.val; omega) rfl
  have h3 : (iblk m c 3 t : S1x2048.Idx → EReal) (ix2 0 k) = R2s m c (ix2 0 (colOf t.val k)) :=
    blk3_read c (V m c (Pipeline.arrRef spec0 3)) t (ix2 0 k) (ix2 0 (colOf t.val k)) rfl rfl
  unfold pairE pairG
  rw [h2, h3, Finset.sum_congr rfl fun d _ => by rw [h0 d, h1 d]]

theorem tile_blocks (c : Dev nD) (t : Fin cfg0.N) :
    ∑ q : Fin 1024, ∑ k : Fin 2048, pairE (iblk m c 0 t) (iblk m c 1 t) (iblk m c 2 t) (iblk m c 3 t) q k = tileG (Xs m c) (R1s m c) (R2s m c) t.val :=
  Finset.sum_congr rfl fun q _ => Finset.sum_congr rfl fun k _ => pairE_blocks m c t q k

/-- After point n the accumulator's element is the sum of the totals of tiles 0 … n. -/
theorem accAt_sum (c : Dev nD) : ∀ (n : ℕ) (hn : n < cfg0.N),
    (accAt m c n hn : S1x1.Idx → EReal) (ix2 0 0) = ∑ t ∈ Finset.range (n + 1), tileG (Xs m c) (R1s m c) (R2s m c) t
  | 0, hn => by
    rw [Finset.sum_range_one]
    show k0_pay2 (F := Ideal) (iblk m c 0 ⟨0, hn⟩) (iblk m c 1 ⟨0, hn⟩) (iblk m c 2 ⟨0, hn⟩) (iblk m c 3 ⟨0, hn⟩) (k0_pay1 (F := Ideal)) (ix2 0 0) = _
    rw [pay2_apply, pay1_apply, zero_add]
    exact tile_blocks m c ⟨0, hn⟩
  | n + 1, hn => by
    rw [Finset.sum_range_succ, ← accAt_sum c n (Nat.lt_of_succ_lt hn)]
    show k0_pay2 (F := Ideal) (iblk m c 0 ⟨n + 1, hn⟩) (iblk m c 1 ⟨n + 1, hn⟩) (iblk m c 2 ⟨n + 1, hn⟩) (iblk m c 3 ⟨n + 1, hn⟩)
      (accAt m c n (Nat.lt_of_succ_lt hn)) (ix2 0 0) = _
    rw [pay2_apply]
    exact congrArg _ (tile_blocks m c ⟨n + 1, hn⟩)

/-- The result array's one element after the run: the sum over all pairs of samples. -/
theorem result_elem (c : Dev nD) :
    ((dats m 0 c).arrAt 4 cfg0.N : S1x1.Idx → EReal) (ix2 0 0) = ∑ a : Fin 16384, ∑ b : Fin 16384, pairG (Xs m c) (R1s m c) (R2s m c) a b := by
  rw [final_out m c]
  exact (accAt_sum m c 127 _).trans (tiles_total _ _ _)

end Cert.KernelIdeal.Hand

end
-- ==== Proof.KI.Frame.lean ====
/-
  The frame: no host operation, before or after the region, writes an argument of @main, and no window of the
  region is on one; so each argument's buffer ends the run holding what it held at launch.
-/
import proofs.«109620_j24661702214232_1_alg».proof.Proof.KI.Run

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every host operation writes only its own result buffer, which is no argument. -/
local macro "no_write" : tactic => `(tactic| (
  refine List.forall_iff_forall_mem.mp ?_
  simp only [preOps, hostOps0, hostOps0_1, hostOps0_2, hostOps0_3, hostOps0_4, hostOps1, List.flatten_cons, List.flatten_nil, List.append_nil,
    List.cons_append, List.nil_append, List.Forall, StableHlo.nullary_writes, StableHlo.unary_writes, StableHlo.binary_writes,
    StableHlo.ternary_writes, StableHlo.reshape_writes, Finset.mem_singleton]
  repeat' apply And.intro
  all_goals exact StableHlo.devRef_ne_of_ne (by decide)))

theorem V_arg0 (c : Dev nD) : V0 m c (Proc.devRef .tc main_arg0) = m ((c : Thread nD τ).loc main_arg0) :=
  StableHlo.after_of_forall_not_mem (b := Proc.devRef .tc main_arg0) _ _ (by no_write)
theorem final_arg0 (c : Dev nD) : Cert.SharedFrame.finalAt (Wx m) [hostOps1] c main_arg0 = m ((c : Thread nD τ).loc main_arg0) := by
  unfold Cert.SharedFrame.finalAt
  rw [StableHlo.after_of_forall_not_mem (b := Proc.devRef .tc main_arg0) _ _ (by no_write), Wx_ne m c main_arg0 (by decide)]
  exact V_arg0 m c
theorem V_arg1 (c : Dev nD) : V0 m c (Proc.devRef .tc main_arg1) = m ((c : Thread nD τ).loc main_arg1) :=
  StableHlo.after_of_forall_not_mem (b := Proc.devRef .tc main_arg1) _ _ (by no_write)
theorem final_arg1 (c : Dev nD) : Cert.SharedFrame.finalAt (Wx m) [hostOps1] c main_arg1 = m ((c : Thread nD τ).loc main_arg1) := by
  unfold Cert.SharedFrame.finalAt
  rw [StableHlo.after_of_forall_not_mem (b := Proc.devRef .tc main_arg1) _ _ (by no_write), Wx_ne m c main_arg1 (by decide)]
  exact V_arg1 m c
theorem V_arg2 (c : Dev nD) : V0 m c (Proc.devRef .tc main_arg2) = m ((c : Thread nD τ).loc main_arg2) :=
  StableHlo.after_of_forall_not_mem (b := Proc.devRef .tc main_arg2) _ _ (by no_write)
theorem final_arg2 (c : Dev nD) : Cert.SharedFrame.finalAt (Wx m) [hostOps1] c main_arg2 = m ((c : Thread nD τ).loc main_arg2) := by
  unfold Cert.SharedFrame.finalAt
  rw [StableHlo.after_of_forall_not_mem (b := Proc.devRef .tc main_arg2) _ _ (by no_write), Wx_ne m c main_arg2 (by decide)]
  exact V_arg2 m c
theorem V_arg3 (c : Dev nD) : V0 m c (Proc.devRef .tc main_arg3) = m ((c : Thread nD τ).loc main_arg3) :=
  StableHlo.after_of_forall_not_mem (b := Proc.devRef .tc main_arg3) _ _ (by no_write)
theorem final_arg3 (c : Dev nD) : Cert.SharedFrame.finalAt (Wx m) [hostOps1] c main_arg3 = m ((c : Thread nD τ).loc main_arg3) := by
  unfold Cert.SharedFrame.finalAt
  rw [StableHlo.after_of_forall_not_mem (b := Proc.devRef .tc main_arg3) _ _ (by no_write), Wx_ne m c main_arg3 (by decide)]
  exact V_arg3 m c
theorem V_arg4 (c : Dev nD) : V0 m c (Proc.devRef .tc main_arg4) = m ((c : Thread nD τ).loc main_arg4) :=
  StableHlo.after_of_forall_not_mem (b := Proc.devRef .tc main_arg4) _ _ (by no_write)
theorem final_arg4 (c : Dev nD) : Cert.SharedFrame.finalAt (Wx m) [hostOps1] c main_arg4 = m ((c : Thread nD τ).loc main_arg4) := by
  unfold Cert.SharedFrame.finalAt
  rw [StableHlo.after_of_forall_not_mem (b := Proc.devRef .tc main_arg4) _ _ (by no_write), Wx_ne m c main_arg4 (by decide)]
  exact V_arg4 m c
theorem V_arg5 (c : Dev nD) : V0 m c (Proc.devRef .tc main_arg5) = m ((c : Thread nD τ).loc main_arg5) :=
  StableHlo.after_of_forall_not_mem (b := Proc.devRef .tc main_arg5) _ _ (by no_write)
theorem final_arg5 (c : Dev nD) : Cert.SharedFrame.finalAt (Wx m) [hostOps1] c main_arg5 = m ((c : Thread nD τ).loc main_arg5) := by
  unfold Cert.SharedFrame.finalAt
  rw [StableHlo.after_of_forall_not_mem (b := Proc.devRef .tc main_arg5) _ _ (by no_write), Wx_ne m c main_arg5 (by decide)]
  exact V_arg5 m c
theorem V_arg6 (c : Dev nD) : V0 m c (Proc.devRef .tc main_arg6) = m ((c : Thread nD τ).loc main_arg6) :=
  StableHlo.after_of_forall_not_mem (b := Proc.devRef .tc main_arg6) _ _ (by no_write)
theorem final_arg6 (c : Dev nD) : Cert.SharedFrame.finalAt (Wx m) [hostOps1] c main_arg6 = m ((c : Thread nD τ).loc main_arg6) := by
  unfold Cert.SharedFrame.finalAt
  rw [StableHlo.after_of_forall_not_mem (b := Proc.devRef .tc main_arg6) _ _ (by no_write), Wx_ne m c main_arg6 (by decide)]
  exact V_arg6 m c

/-- THE FRAME: every weakly fair execution terminates without a fault and the arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 main_arg0 (Pipeline.mem_restRefs_of main_arg0 (by decide) (by decide))).trans (final_arg0 m c),
      ((h c).2 main_arg1 (Pipeline.mem_restRefs_of main_arg1 (by decide) (by decide))).trans (final_arg1 m c),
      ((h c).2 main_arg2 (Pipeline.mem_restRefs_of main_arg2 (by decide) (by decide))).trans (final_arg2 m c),
      ((h c).2 main_arg3 (Pipeline.mem_restRefs_of main_arg3 (by decide) (by decide))).trans (final_arg3 m c),
      ((h c).2 main_arg4 (Pipeline.mem_restRefs_of main_arg4 (by decide) (by decide))).trans (final_arg4 m c),
      ((h c).2 main_arg5 (Pipeline.mem_restRefs_of main_arg5 (by decide) (by decide))).trans (final_arg5 m c),
      ((h c).2 main_arg6 (Pipeline.mem_restRefs_of main_arg6 (by decide) (by decide))).trans (final_arg6 m c)⟩) (run_main m ρ)

end Cert.KernelIdeal.Hand

end
-- ==== Proof.Bridge.lean ====
/-
  The two programs compute one number. Both form the sample matrix X (one row per sample) and its vector r of
  squared row norms by the same host operations, and both finish with the same three host operations on
  S = Σ over all pairs (a, b) of exp(-d(a,b)/2), d(a,b) = max(r[a] + r[b] - 2·<X[a], X[b]>, 0):
  the reference forms the whole 16384 × 16384 table and sums it; the kernel sums it tile by tile into a one-element
  accumulator. At the extended reals the two sums have the same terms, grouped differently, so they are equal by the
  commutativity and associativity of addition alone; no input need be finite for this.
-/
import proofs.«109620_j24661702214232_1_alg».proof.Proof.KI.Sum
import proofs.«109620_j24661702214232_1_alg».proof.Proof.KI.Frame
import proofs.«109620_j24661702214232_1_alg».proof.Proof.Gen.ReferenceIdeal.Read

set_option maxRecDepth 16384

noncomputable section

namespace Cert.Bridge

open Idealize.ShloMosaic Idealize.ShloMosaic.TcCoe Idealize.ShloMosaic.ValueIdx Idealize.SL.Sem Idealize.ShloMosaic.StableHlo
open Idealize.ShloMosaic.Pipeline (Dat)
open Cert.KernelIdeal Cert.KernelIdeal.Gen Cert.KernelIdeal.Hand
open Cert.ReferenceIdeal.Read

/-! ## One pair's term over the samples and their norms -/

/-- exp(-d/2) for the pair (a, b): d the clamped squared distance, from the norms and the inner product. -/
def pairH (X : S16384x16.Idx → EReal) (R : S16384.Idx → EReal) (a b : Fin 16384) : EReal :=
  Ideal.exp (Ideal.ofBits .f32 0xBF000000#32 * max ((R (ix1 a) + R (ix1 b))
    - Ideal.ofBits .f32 0x40000000#32 * ∑ d : Fin 16, X (ix2 a d) * X (ix2 b d)) (Ideal.ofBits .f32 0x00000000#32))

/-- The kernel reads the norms through a column and a row laid out from the one vector. -/
theorem pairG_eq_pairH (X : S16384x16.Idx → EReal) (R1 : S16384x1.Idx → EReal) (R2 : S1x16384.Idx → EReal) (R : S16384.Idx → EReal)
    (h1 : ∀ a : Fin 16384, R1 (ix2 a 0) = R (ix1 a)) (h2 : ∀ b : Fin 16384, R2 (ix2 0 b) = R (ix1 b)) (a b : Fin 16384) :
    pairG X R1 R2 a b = pairH X R a b := by
  unfold pairG pairH
  rw [h1, h2]

/-! ## The reference's table and its sum -/

section Reference

variable (x0 : (⟨Cert.ReferenceIdeal.S16384x33, .f32⟩ : BufTy).Contents (Elt Ideal)) (x1 : (⟨Cert.ReferenceIdeal.S16x128, .f32⟩ : BufTy).Contents (Elt Ideal))
  (x2 : (⟨Cert.ReferenceIdeal.S128, .f32⟩ : BufTy).Contents (Elt Ideal)) (x3 : (⟨Cert.ReferenceIdeal.S128x16, .f32⟩ : BufTy).Contents (Elt Ideal))
  (x4 : (⟨Cert.ReferenceIdeal.S16, .f32⟩ : BufTy).Contents (Elt Ideal)) (x5 : (⟨Cert.ReferenceIdeal.S128x16, .f32⟩ : BufTy).Contents (Elt Ideal))
  (x6 : (⟨Cert.ReferenceIdeal.S16, .f32⟩ : BufTy).Contents (Elt Ideal))

set_option maxRecDepth 65536 in
/-- Entry (a, b) of the reference's table is the pair's term. -/
theorem ref_pair (a b : Fin 16384) :
    val_main_v43 (F := Ideal) x0 x1 x2 x3 x4 x5 x6 (ix2 a b) = pairH (val_main_v26 (F := Ideal) x0 x1 x2 x3 x4 x5 x6) (val_main_v28 (F := Ideal) x0 x1 x2 x3 x4 x5 x6) a b := by
  have e31 : idx_main_v31 (ix2 a b) = ix2 a 0 := funext fun x => Fin.ext (by match x with | ⟨0, _⟩ => rfl | ⟨1, _⟩ => rfl)
  have e29 : idx_main_v29 (ix2 a (0 : Fin 1)) = ix1 a := funext fun x => Fin.ext (by match x with | ⟨0, _⟩ => rfl)
  have e32 : idx_main_v32 (ix2 a b) = ix2 0 b := funext fun x => Fin.ext (by match x with | ⟨0, _⟩ => rfl | ⟨1, _⟩ => rfl)
  have e30 : idx_main_v30 (ix2 (0 : Fin 1) b) = ix1 b := funext fun x => Fin.ext (by match x with | ⟨0, _⟩ => rfl)
  have el : ∀ k : Fin 16, lidx_main_v35 (ix2 a b) k = ix2 a k := fun k => funext fun x => Fin.ext (by match x with | ⟨0, _⟩ => rfl | ⟨1, _⟩ => rfl)
  have er : ∀ k : Fin 16, idx_main_v34 (ridx_main_v35 (ix2 a b) k) = ix2 b k := fun k => funext fun x => Fin.ext (by match x with | ⟨0, _⟩ => rfl | ⟨1, _⟩ => rfl)
  rw [val_main_v43_apply, val_main_v42_apply, val_main_v41_apply, val_main_cst_3_apply, val_main_v40_apply, val_main_v39_apply, val_main_cst_2_apply,
    val_main_v38_apply, val_main_v33_apply, val_main_v31_apply, e31, val_main_v29_apply, e29, val_main_v32_apply, e32, val_main_v30_apply, e30,
    val_main_v37_apply, val_main_v36_apply, val_main_cst_1_apply, val_main_v35_apply]
  simp only [val_main_v34_apply, el, er]
  rfl

/-- The reference's sum over its table is the sum over all pairs. -/
theorem ref_total (i : Cert.ReferenceIdeal.S_.Idx) :
    val_main_v44 (F := Ideal) x0 x1 x2 x3 x4 x5 x6 i = ∑ a : Fin 16384, ∑ b : Fin 16384, pairH (val_main_v26 (F := Ideal) x0 x1 x2 x3 x4 x5 x6) (val_main_v28 (F := Ideal) x0 x1 x2 x3 x4 x5 x6) a b := by
  rw [val_main_v44_apply]
  show Ideal.ofBits .f32 0x00000000#32 + _ = _
  rw [Ideal.ofBits_zero_f32, zero_add, sum_idx2]
  exact Finset.sum_congr rfl fun a _ => Finset.sum_congr rfl fun b _ => ref_pair x0 x1 x2 x3 x4 x5 x6 a b

end Reference

/-! ## The kernel's side -/

variable (m : (ℓ : Loc nD τ sig) → Buf (Elt Ideal) ℓ)

/-- The samples, as the reference's operations compute them from the launch contents of the kernel's arguments. -/
abbrev refX (c : Dev nD) : S16384x16.Idx → EReal :=
  val_main_v26 (F := Ideal) (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5)) (m ((c.tc : Thread nD τ).loc main_arg6))
/-- Their squared norms. -/
abbrev refR (c : Dev nD) : S16384.Idx → EReal :=
  val_main_v28 (F := Ideal) (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5)) (m ((c.tc : Thread nD τ).loc main_arg6))

/-! The host operations before the region are the reference's own, operation for operation. -/

set_option maxHeartbeats 4000000 in
theorem pre26 (c : Dev nD) : (V m c main_v26 : S16384x16.Idx → EReal) = refX m c := by
  dsimp only [V, V0]
  simp only [preOps, hostOps0, hostOps0_1, hostOps0_2, hostOps0_3, hostOps0_4, List.flatten_cons, List.flatten_nil, List.append_nil, List.cons_append, List.nil_append]
  after_results_simp
  rfl

set_option maxHeartbeats 4000000 in
theorem pre28 (c : Dev nD) : (V m c main_v28 : S16384.Idx → EReal) = refR m c := by
  dsimp only [V, V0]
  simp only [preOps, hostOps0, hostOps0_1, hostOps0_2, hostOps0_3, hostOps0_4, List.flatten_cons, List.flatten_nil, List.append_nil, List.cons_append, List.nil_append]
  after_results_simp
  rfl

set_option maxHeartbeats 4000000 in
theorem pre29 (c : Dev nD) : (V m c main_v29 : S16384x1.Idx → EReal) = shapeCast S16384x1 (refR m c) Facts₀.shapeCasts_S16384_S16384x1 := by
  dsimp only [V, V0]
  simp only [preOps, hostOps0, hostOps0_1, hostOps0_2, hostOps0_3, hostOps0_4, List.flatten_cons, List.flatten_nil, List.append_nil, List.cons_append, List.nil_append]
  after_results_simp
  rfl

set_option maxHeartbeats 4000000 in
theorem pre30 (c : Dev nD) : (V m c main_v30 : S1x16384.Idx → EReal) = shapeCast S1x16384 (refR m c) Facts₀.shapeCasts_S16384_S1x16384 := by
  dsimp only [V, V0]
  simp only [preOps, hostOps0, hostOps0_1, hostOps0_2, hostOps0_3, hostOps0_4, List.flatten_cons, List.flatten_nil, List.append_nil, List.cons_append, List.nil_append]
  after_results_simp
  rfl

/-- The norms' column read at row a is the norm of sample a; -/
theorem col_read (c : Dev nD) (a : Fin 16384) : R1s m c (ix2 a 0) = refR m c (ix1 a) := by
  show (V m c main_v29 : S16384x1.Idx → EReal) (ix2 a 0) = _
  rw [pre29]
  refine shapeCast_apply _ _ _ (ix1 a) ?_
  rw [Shape.rowMajor_val_one, Shape.rowMajor_val_two]
  show a.val = a.val * 1 + 0
  omega

/-- and the norms' row read at column b the norm of sample b. -/
theorem row_read (c : Dev nD) (b : Fin 16384) : R2s m c (ix2 0 b) = refR m c (ix1 b) := by
  show (V m c main_v30 : S1x16384.Idx → EReal) (ix2 0 b) = _
  rw [pre30]
  refine shapeCast_apply _ _ _ (ix1 b) ?_
  rw [Shape.rowMajor_val_one, Shape.rowMajor_val_two]
  show b.val = 0 * 16384 + b.val
  omega

/-- The kernel's pairs are the reference's pairs, term by term. -/
theorem pairs_eq (c : Dev nD) :
    (∑ a : Fin 16384, ∑ b : Fin 16384, pairG (Xs m c) (R1s m c) (R2s m c) a b)
      = ∑ a : Fin 16384, ∑ b : Fin 16384, pairH (refX m c) (refR m c) a b :=
  Finset.sum_congr rfl fun a _ => Finset.sum_congr rfl fun b _ => by
    rw [pairG_eq_pairH _ _ _ (refR m c) (col_read m c) (row_read m c)]
    show pairH (V m c main_v26) _ a b = _
    rw [pre26]

/-- The result array's one element after the run is the reference's sum. -/
theorem result_is_ref (c : Dev nD) :
    @Eq EReal (((dats m 0 c).arrAt 4 cfg0.N : S1x1.Idx → EReal) (ix2 0 0)) (∑ a : Fin 16384, ∑ b : Fin 16384, pairH (refX m c) (refR m c) a b) :=
  (result_elem m c).trans (pairs_eq m c)

set_option maxHeartbeats 4000000 in
/-- The kernel's result: the later host operations applied to the region's result and to the norms are the reference's
    last operations applied to its own sum and norms. -/
theorem kernel_final (c : Dev nD) :
    (Cert.SharedFrame.finalAt (Wx m) [hostOps1] c main_v40 : S_.Idx → EReal)
      = val_main_v52 (F := Ideal) (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5)) (m ((c.tc : Thread nD τ).loc main_arg6)) := by
  unfold Cert.SharedFrame.finalAt
  simp only [hostOps1, List.flatten_cons, List.flatten_nil, List.append_nil]
  after_results_simp
  rw [Wx_v31, Wx_ne m c main_v28 (by decide)]
  have hS : (fun i => shapeCast main_v32.ty.shape ((dats m 0 c).arrAt 4 cfg0.N) Facts₀.shapeCasts_S1x1_S_ i : S_.Idx → EReal)
      = val_main_v44 (F := Ideal) (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) (m ((c.tc : Thread nD τ).loc main_arg6)) := by
    funext i
    refine (shapeCast_apply _ _ i (ix2 (0 : Fin 1) (0 : Fin 1)) ?_).trans ?_
    · have h1 := (S_.rowMajor i).isLt
      have hn : S_.numel = 1 := by decide
      rw [Shape.rowMajor_val_two]
      show 0 * 1 + 0 = _
      omega
    · exact (result_is_ref m c).trans (ref_total _ _ _ _ _ _ _ i).symm
  have h52 : val_main_v52 (F := Ideal) (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) (m ((c.tc : Thread nD τ).loc main_arg6))
      = addf (F := Ideal) (addf (F := Ideal) (Host.divf (F := Ideal) (val_main_v44 (F := Ideal) (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) (m ((c.tc : Thread nD τ).loc main_arg6))) (constant (F := Ideal) S_ .f32 0x46800000#32))
          (mulf (F := Ideal) (constant (F := Ideal) S_ .f32 0xBC000000#32) (Host.reduceAdd (F := Ideal) (Host.exp (F := Ideal) (mulf (F := Ideal)
            (broadcastInDim S16384 ![] Facts₀.bcast_S_S16384 (constant (F := Ideal) S_ .f32 0xBE800000#32))
            (refR m c))) (constant (F := Ideal) S_ .f32 0x00000000#32) Facts₀.reducesTo_S16384_S_d0 Facts₀.h_S_))) (constant (F := Ideal) S_ .f32 0x401FD1CD#32) := rfl
  rw [h52, ← hS, ← pre28 m c]
  rfl

/-! ## The kernel's run, read -/

/-- Every weakly fair execution of the idealized kernel terminates with its result at the reference's term of the
    launch contents of its arguments, and the arguments unchanged. -/
theorem kernel_run (ρ : Dev nD → PrngReg) : θ_run defs (onTc (τ := τ) (main (F := Ideal))) ⟨m, fun _ => 0, ρ⟩ (fun r => ∀ c : Dev nD,
      r.2.mem ((c.tc : Thread nD τ).loc main_v40) = val_main_v52 (F := Ideal) (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 main_v40 (Pipeline.mem_restRefs_of main_v40 (by decide) (by decide))).trans (kernel_final m c),
      ((h c).2 main_arg0 (Pipeline.mem_restRefs_of main_arg0 (by decide) (by decide))).trans (final_arg0 m c),
      ((h c).2 main_arg1 (Pipeline.mem_restRefs_of main_arg1 (by decide) (by decide))).trans (final_arg1 m c),
      ((h c).2 main_arg2 (Pipeline.mem_restRefs_of main_arg2 (by decide) (by decide))).trans (final_arg2 m c),
      ((h c).2 main_arg3 (Pipeline.mem_restRefs_of main_arg3 (by decide) (by decide))).trans (final_arg3 m c),
      ((h c).2 main_arg4 (Pipeline.mem_restRefs_of main_arg4 (by decide) (by decide))).trans (final_arg4 m c),
      ((h c).2 main_arg5 (Pipeline.mem_restRefs_of main_arg5 (by decide) (by decide))).trans (final_arg5 m c),
      ((h c).2 main_arg6 (Pipeline.mem_restRefs_of main_arg6 (by decide) (by decide))).trans (final_arg6 m c)⟩) (run_main m ρ)

end Cert.Bridge

end
-- ==== Proof.lean ====
/-
  The certificate of a kernel that sums exp(-d/2) over all pairs of 16384 samples, d the squared distance of a pair
  from the norm expansion, clamped at zero, tile by tile into a one-element accumulator, against the plain jnp
  reference that forms the whole 16384 × 16384 table and sums it.

  Frames. The kernel's region has five windows, two of them on the one sample matrix, so its buffer is held at the
  two halves of the full share inside the region; the accumulator is a scratch buffer carried from grid point to grid
  point (reset at the first point, copied to the one-element result block at the last, the only point whose block
  is written back). The body's run at a point is one of three cases by the point's position; the host operations
  before and after the region write none of the arguments. The same text proves the word-level program and the
  idealized one. The reference has no kernel: its frame is its run with the result dropped.

  Preserves. The idealization rewrote nothing, so there is nothing to state.

  Algebraic. Both programs compute the sample matrix and its squared row norms by the same host operations and
  finish with the same host operations on the sum over all pairs; the kernel's accumulator after the last tile is that
  sum regrouped by tiles, equal to the reference's by commutativity and associativity of addition on the
  extended reals. The precondition is not used.
-/
import proofs.«109620_j24661702214232_1_alg».proof.Defs
import proofs.«109620_j24661702214232_1_alg».proof.Proof.Gen.Kernel
import proofs.«109620_j24661702214232_1_alg».proof.Proof.Gen.KernelIdeal
import proofs.«109620_j24661702214232_1_alg».proof.Proof.Gen.ReferenceIdeal
import proofs.«109620_j24661702214232_1_alg».proof.Proof.Gen.Pre_finite_inputs
import proofs.«109620_j24661702214232_1_alg».proof.Proof.Gen.ReferenceIdeal.Read
import proofs.«109620_j24661702214232_1_alg».proof.Proof.K.Frame
import proofs.«109620_j24661702214232_1_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the reference's term of the arguments: the kernel by the regrouped sum, the reference by
    its own run, the arguments' agreement rewritten. -/
theorem algebraic : Cert.algebraic_KernelIdeal_ReferenceIdeal := by
  intro m ρ m' ρ' _ hagree
  refine ⟨fun c => Cert.ReferenceIdeal.Read.val_main_v52 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    Cert.Bridge.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v52_eq, (hagree c).1, (hagree c).2.1, (hagree c).2.2.1, (hagree c).2.2.2.1, (hagree c).2.2.2.2.1,
    (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
